-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S_ : Shape := ⟨0, ![]⟩
abbrev S1x1024 : Shape := ⟨2, ![1, 1024]⟩
abbrev S512x1024 : Shape := ⟨2, ![512, 1024]⟩
abbrev S1x256x1024 : Shape := ⟨3, ![1, 256, 1024]⟩
abbrev S1x2048x1024 : Shape := ⟨3, ![1, 2048, 1024]⟩
abbrev S256x1024 : Shape := ⟨2, ![256, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 25
  | .vmem => 20
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S1x1024, .f32⟩
  | .hbm, ⟨16, _⟩ => ⟨S1024x1024, .bf16⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S8192x1024, .bf16⟩
  | .hbm, ⟨21, _⟩ => ⟨S8192x1024, .bf16⟩
  | .hbm, ⟨22, _⟩ => ⟨S4x2048x1024, .bf16⟩
  | .hbm, ⟨23, _⟩ => ⟨S4x2048x1024, .bf16⟩
  | .hbm, ⟨24, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x256x1024, .f32⟩
  | .local _ .vmem, ⟨11, _⟩ => ⟨S1x256x1024, .f32⟩
  | .local _ .vmem, ⟨12, _⟩ => ⟨S1024x1024, .bf16⟩
  | .local _ .vmem, ⟨13, _⟩ => ⟨S1x1024, .f32⟩
  | .local _ .vmem, ⟨14, _⟩ => ⟨S1x2048x1024, .bf16⟩
  | .local _ .vmem, ⟨15, _⟩ => ⟨S1x2048x1024, .bf16⟩
  | .local _ .vmem, ⟨16, _⟩ => ⟨S1x2048x1024, .bf16⟩
  | .local _ .vmem, ⟨17, _⟩ => ⟨S1x2048x1024, .bf16⟩
  | .local _ .vmem, ⟨18, _⟩ => ⟨S1x256x1024, .f32⟩
  | .local _ .vmem, ⟨19, _⟩ => ⟨S1x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S4x2048x1024_S8192x1024 : S4x2048x1024.ShapeCasts S8192x1024
  bcast_S_S1024x1024 : S_.BroadcastsInDim S1024x1024 (![] : Fin 0 → Fin S1024x1024.rank)
  bitsLt_bf16_f32 : FTy.bits .bf16 < FTy.bits .f32
  bcast_S_S1024 : S_.BroadcastsInDim S1024 (![] : Fin 0 → Fin S1024.rank)
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  broadcasts_S1x1024_S256x1024 : S1x1024.Broadcasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S256x2048_S256 : S256x2048.Reduces [1] S256
  shapeCasts_S256_S256x1 : S256.ShapeCasts S256x1
  broadcasts_S256x1_S256x2048 : S256x1.Broadcasts S256x2048
  broadcasts_S256x1_S256x1024 : S256x1.Broadcasts S256x1024
  shapeCasts_S256x1024_S1x256x1024 : S256x1024.ShapeCasts S1x256x1024
  dot_S512x1024_S1024x1024_S512x1024_1_0_0_1_n_n_wf : DotDims.WF S512x1024 S1024x1024 S512x1024 [1] [0] [0] [1] [] []
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .bf16 = 32 ∨ (Rect.block (s := S8192x1024) S512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x2048x1024.size a
  hwx1_0 : ∀ i : grid1.Coords, EltTy.bits .f32 = 32 ∨ (Rect.block (s := S4x2048x1024) S1x256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x1024.size a ≤ S4x2048x1024.size a
  hwx1_3 : ∀ i : grid1.Coords, EltTy.bits .bf16 = 32 ∨ (Rect.block (s := S4x2048x1024) S1x2048x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x1024.size a ≤ S4x2048x1024.size a
  hwx1_4 : ∀ i : grid1.Coords, EltTy.bits .bf16 = 32 ∨ (Rect.block (s := S4x2048x1024) S1x2048x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1024.size a ≤ S4x2048x1024.size a
  hwx1_5 : ∀ i : grid1.Coords, EltTy.bits .f32 = 32 ∨ (Rect.block (s := S4x2048x1024) S1x256x1024.size (cc1_transform_5 i) (hinb1_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11_0) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11_1) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x2048x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x2048x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x2048, .f32⟩
  | .hbm, ⟨20, _⟩ => ⟨S_, .f32⟩
  | .hbm, ⟨21, _⟩ => ⟨S_, .f32⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x2048, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Spec.lean ====
/-
  Single-head softmax attention on the extended reals, for x : [4, 2048, 1024] and three projections of width 1024,
  written in the two arrangements that are compared.

  A projection of token (b, r) is the row  Σ_e x[b,r,e] · W[e,f] + bias[f].  The score of key k for a query row q is
  the inner product  Σ_f q[f] · K[k,f];  a row's weights are  exp (score − max score),  the maximum taken from −∞.

  Arrangement "sum, then divide":  the weights and bias of the query projection are multiplied by the scale c
  beforehand; the weighted sum of the values is formed first and divided ONCE by the weights' total.

  Arrangement "divide, then sum":  the query projection is unscaled and every score is divided by √1024 afterwards;
  the maximum is taken once more against −∞; every weight is divided by (0 + the total) and only then are the values
  summed.

  The starting values of the reductions (−∞, 0), the scale and the number 1024 are kept as the float words the two
  programs carry; what they denote is only needed where the two arrangements are proved equal.
-/
import Idealize.ShloMosaic.PureOps.Ideal
import Idealize.ShloMosaic.Lib.ValueIdx

open scoped BigOperators

noncomputable section

namespace Cert.Spec

open Idealize.ShloMosaic Idealize.ShloMosaic.ValueIdx

/-- An array [4, 2048, 1024], a matrix [1024, 1024], a vector [1024] of extended reals. -/
abbrev Arr3 := (⟨3, ![4, 2048, 1024]⟩ : Shape).Idx → EReal
abbrev Mat := (⟨2, ![1024, 1024]⟩ : Shape).Idx → EReal
abbrev Vec1 := (⟨1, ![1024]⟩ : Shape).Idx → EReal

/-- −∞, 0, the scale 1/32 and 1024 as the float words the programs carry. -/
abbrev negInf : EReal := Ideal.ofBits .f32 0xFF800000#32
abbrev zero : EReal := Ideal.ofBits .f32 0x00000000#32
abbrev scale : EReal := Ideal.ofBits .f32 0x3D000000#32
abbrev n1024 : EReal := Ideal.ofBits .f32 0x44800000#32

/-- Entry f of the projection of token (b, r):  Σ_e x[b,r,e] · W[e,f] + bias[f]. -/
def proj (x : Arr3) (W : Mat) (bias : Vec1) (b : Fin 4) (r : Fin 2048) (f : Fin 1024) : EReal :=
  (∑ e : Fin 1024, x (ix3 b r e) * W (ix2 e f)) + bias (ix1 f)

/-- The same projection with every weight and every bias entry multiplied by c beforehand. -/
def projScaled (c : EReal) (x : Arr3) (W : Mat) (bias : Vec1) (b : Fin 4) (r : Fin 2048) (f : Fin 1024) : EReal :=
  (∑ e : Fin 1024, x (ix3 b r e) * (W (ix2 e f) * c)) + bias (ix1 f) * c

/-- The score of key k for the query row q:  Σ_f q[f] · K[k,f]. -/
def score (q : Fin 1024 → EReal) (K : Fin 2048 → Fin 1024 → EReal) (k : Fin 2048) : EReal :=
  ∑ f : Fin 1024, q f * K k f

/-- One output entry from a row of scores s and a column of values v: the weighted sum of the values, divided once
    by the weights' total. -/
def sumThenDivide (s v : Fin 2048 → EReal) : EReal :=
  Ideal.div (∑ k, Ideal.exp (s k - Finset.univ.fold max negInf s) * v k)
    (∑ k, Ideal.exp (s k - Finset.univ.fold max negInf s))

/-- One output entry from a row of scores s and a column of values v: every weight divided by 0 + the total (the
    maximum taken once more against −∞), then the values summed. -/
def divideThenSum (s v : Fin 2048 → EReal) : EReal :=
  ∑ k, Ideal.div (Ideal.exp (s k - max negInf (Finset.univ.fold max negInf s)))
      (zero + ∑ k', Ideal.exp (s k' - max negInf (Finset.univ.fold max negInf s))) * v k

/-- Attention with the scale folded into the query projection's weights and bias; sum, then divide. -/
def scaledFirst (x : Arr3) (Wq : Mat) (bq : Vec1) (Wk : Mat) (bk : Vec1) (Wv : Mat) (bv : Vec1) : Arr3 := fun i =>
  sumThenDivide (score (projScaled scale x Wq bq (i 0) (i 1)) (fun k => proj x Wk bk (i 0) k))
    (fun k => proj x Wv bv (i 0) k (i 2))

/-- Attention with every score divided by √1024 afterwards; divide, then sum. -/
def scaledLast (x : Arr3) (Wq : Mat) (bq : Vec1) (Wk : Mat) (bk : Vec1) (Wv : Mat) (bv : Vec1) : Arr3 := fun i =>
  divideThenSum (fun k => Ideal.div (score (proj x Wq bq (i 0) (i 1)) (fun k' => proj x Wk bk (i 0) k') k) (Ideal.sqrt n1024))
    (fun k => proj x Wv bv (i 0) k (i 2))

end Cert.Spec

end
-- ==== Proof.LibRowMax.lean ====
/-
  A maximum along one axis, read at an index of the result, on the extended reals.

  The vector unit's maximum along the last axis of a matrix [a, b], read at row p, is the fold of `max` from the
  accumulator's value over the row's entries (p, k), k : Fin b. The host's reduce by maximum over one axis is the same
  fold from its initial value's one element over that axis's coordinates. A fold of `max` is at least the value it
  starts from, so taking the maximum with that value once more changes nothing.
-/
import Idealize.ShloMosaic.PureOps.Ideal.Laws
import Idealize.ShloMosaic.Lib.ValueIdx

noncomputable section

namespace Cert.LibRowMax

open Idealize.ShloMosaic Idealize.ShloMosaic.ValueIdx

/-- Over row p of an [a, b] matrix, the source index with coordinate k on axis 1 is (p, k). -/
theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- The vector unit's maximum along the rows of an [a, b] matrix, at row p: the fold of `max` from the accumulator's
    value over the row's entries. -/
theorem multiReduction_maximumf_row {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg ((Finset.univ : Finset (Fin b)).fold max (Ideal.ofBits φ acc)) (funext fun k => congrArg src (lift_row h p k)))

/-- The host's reduce by maximum over one axis, at a result index j: the fold of `max` from the initial value's one
    element over that axis's coordinates put back into j. -/
theorem hostReduce_maximumf_single {φ : FTy} {s t u : Shape} {a : Fin s.rank} (x : FVec Ideal s φ) (init : FVec Ideal u φ)
    (h' : s.ReducesTo [a] t) (h : s.Reduces [a] t) (hu : 0 < u.numel) (j : t.Idx) :
    Host.reduce (FloatOps.maximumf (F := Ideal) (φ := φ)) x init h' hu j
      = (Finset.univ : Finset (Fin (s.size a))).fold max (init (Shape.Idx.first hu)) (x ∘ h.lift j) :=
  Host.reduce_eq_fold_single _ x init h' h hu j

/-- A fold of `max` that starts from b is at least b: the maximum of b and the fold is the fold. -/
theorem max_fold_max_self {ι : Type} (s : Finset ι) (b : EReal) (f : ι → EReal) :
    max b (s.fold max b f) = s.fold max b f :=
  max_eq_right ((Finset.le_fold_max b).2 (Or.inl le_rfl))

end Cert.LibRowMax

end
-- ==== Proof.RefValue.lean ====
/-
  The reference program's result, entry by entry, is the "divide, then sum" arrangement of softmax attention.

  Reading the reference one operation at a time at an index (b, r, d) of its result:
  * each of its three projections at (b, r, f) is  Σ_e x[b,r,e] · W[e,f] + bias[f]  (a contraction, then the bias row
    repeated over the tokens);
  * the score of key k for query row (b, r) is  Σ_f q[b,r,f] · K[b,k,f]  divided by √1024;
  * the row's maximum is the fold of max from −∞ over the row's scores, taken once more against −∞;
  * the weight of key k is  exp (score − maximum);  the total is  0 + Σ_k weight;  every weight is divided by the total;
  * the result is  Σ_k (weight k / total) · V[b,k,d].
  The float words for −∞, 0 and 1024 are kept as the program carries them.
-/
import proofs.«138019_j57836029608017_2_alg».proof.Proof.Gen.ReferenceIdeal.Read
import proofs.«138019_j57836029608017_2_alg».proof.Proof.Spec
import proofs.«138019_j57836029608017_2_alg».proof.Proof.LibRowMax

open scoped BigOperators

noncomputable section

namespace Cert.RefValue

open Cert.ReferenceIdeal Cert.ReferenceIdeal.Gen Cert.ReferenceIdeal.Read Idealize.ShloMosaic Idealize.ShloMosaic.ValueIdx

/-- The argument arrays' types: x : [4, 2048, 1024], a weight matrix [1024, 1024], a bias [1024]. -/
abbrev TX := (⟨S4x2048x1024, .f32⟩ : BufTy).Contents (Elt Ideal)
abbrev TW := (⟨S1024x1024, .f32⟩ : BufTy).Contents (Elt Ideal)
abbrev TB := (⟨S1024, .f32⟩ : BufTy).Contents (Elt Ideal)

/-! ## The projections -/

/-- The query projection at (b, r, f). -/
theorem query_eq (x0 : TX) (x1 : TW) (x2 : TB) (b : Fin 4) (r : Fin 2048) (f : Fin 1024) :
    val_main_v3 (F := Ideal) x0 x1 x2 (ix3 b r f) = Spec.proj x0 x1 x2 b r f := by
  have el : ∀ e : Fin 1024, lidx_main_v0 (ix3 b r f) e = ix3 b r e := fun e => funext fun a => Fin.ext (by
    match a with | ⟨0, _⟩ => rfl | ⟨1, _⟩ => rfl | ⟨2, _⟩ => rfl)
  have er : ∀ e : Fin 1024, ridx_main_v0 (ix3 b r f) e = ix2 e f := fun e => funext fun a => Fin.ext (by
    match a with | ⟨0, _⟩ => rfl | ⟨1, _⟩ => rfl)
  have eb : idx_main_v1 (idx_main_v2 (ix3 b r f)) = ix1 f := funext fun a => Fin.ext (by
    match a with | ⟨0, _⟩ => rfl)
  rw [val_main_v3_apply, val_main_v0_apply, val_main_v2_apply, val_main_v1_apply, eb]
  simp only [el, er, Ideal.addf_def]
  rfl

/-- The key projection at (b, k, f). -/
theorem key_eq (x0 : TX) (x3 : TW) (x4 : TB) (b : Fin 4) (r : Fin 2048) (f : Fin 1024) :
    val_main_v7 (F := Ideal) x0 x3 x4 (ix3 b r f) = Spec.proj x0 x3 x4 b r f := by
  have el : ∀ e : Fin 1024, lidx_main_v4 (ix3 b r f) e = ix3 b r e := fun e => funext fun a => Fin.ext (by
    match a with | ⟨0, _⟩ => rfl | ⟨1, _⟩ => rfl | ⟨2, _⟩ => rfl)
  have er : ∀ e : Fin 1024, ridx_main_v4 (ix3 b r f) e = ix2 e f := fun e => funext fun a => Fin.ext (by
    match a with | ⟨0, _⟩ => rfl | ⟨1, _⟩ => rfl)
  have eb : idx_main_v5 (idx_main_v6 (ix3 b r f)) = ix1 f := funext fun a => Fin.ext (by
    match a with | ⟨0, _⟩ => rfl)
  rw [val_main_v7_apply, val_main_v4_apply, val_main_v6_apply, val_main_v5_apply, eb]
  simp only [el, er, Ideal.addf_def]
  rfl

/-- The value projection at (b, k, f). -/
theorem value_eq (x0 : TX) (x5 : TW) (x6 : TB) (b : Fin 4) (r : Fin 2048) (f : Fin 1024) :
    val_main_v11 (F := Ideal) x0 x5 x6 (ix3 b r f) = Spec.proj x0 x5 x6 b r f := by
  have el : ∀ e : Fin 1024, lidx_main_v8 (ix3 b r f) e = ix3 b r e := fun e => funext fun a => Fin.ext (by
    match a with | ⟨0, _⟩ => rfl | ⟨1, _⟩ => rfl | ⟨2, _⟩ => rfl)
  have er : ∀ e : Fin 1024, ridx_main_v8 (ix3 b r f) e = ix2 e f := fun e => funext fun a => Fin.ext (by
    match a with | ⟨0, _⟩ => rfl | ⟨1, _⟩ => rfl)
  have eb : idx_main_v9 (idx_main_v10 (ix3 b r f)) = ix1 f := funext fun a => Fin.ext (by
    match a with | ⟨0, _⟩ => rfl)
  rw [val_main_v11_apply, val_main_v8_apply, val_main_v10_apply, val_main_v9_apply, eb]
  simp only [el, er, Ideal.addf_def]
  rfl

/-! ## The scores -/

/-- The row of scores of query row (b, r): the inner products with the keys of batch b, each divided by √1024. -/
def scoreRow (x0 : TX) (x1 : TW) (x2 : TB) (x3 : TW) (x4 : TB) (b : Fin 4) (r : Fin 2048) : Fin 2048 → EReal := fun k =>
  Ideal.div (Spec.score (Spec.proj x0 x1 x2 b r) (fun k' => Spec.proj x0 x3 x4 b k') k) (Ideal.sqrt Spec.n1024)

/-- The scaled score at (b, r, k). -/
theorem score_eq (x0 : TX) (x1 : TW) (x2 : TB) (x3 : TW) (x4 : TB) (b : Fin 4) (r k : Fin 2048) :
    val_main_v15 (F := Ideal) x0 x1 x2 x3 x4 (ix3 b r k) = scoreRow x0 x1 x2 x3 x4 b r k := by
  have el : ∀ f : Fin 1024, lidx_main_v12 (ix3 b r k) f = ix3 b r f := fun f => funext fun a => Fin.ext (by
    match a with | ⟨0, _⟩ => rfl | ⟨1, _⟩ => rfl | ⟨2, _⟩ => rfl)
  have er : ∀ f : Fin 1024, ridx_main_v12 (ix3 b r k) f = ix3 b k f := fun f => funext fun a => Fin.ext (by
    match a with | ⟨0, _⟩ => rfl | ⟨1, _⟩ => rfl | ⟨2, _⟩ => rfl)
  rw [val_main_v15_apply, val_main_v12_apply, val_main_v14_apply, val_main_v13_apply, val_main_cst_apply]
  simp only [el, er, query_eq, key_eq, Ideal.hostDivf_def, Ideal.hostUnary_sqrt_def, Ideal.ofBits_def]
  rfl

/-! ## The row maximum -/

/-- Over row (b, r) of a [4, 2048, 2048] array, the source index with coordinate k on the last axis is (b, r, k). -/
theorem lift_last (h : S4x2048x2048.Reduces [2] S4x2048) (b : Fin 4) (r k : Fin 2048) :
    h.lift (ix2 b r) k = ix3 b r k := by
  funext c
  match c with
  | ⟨0, _⟩ => exact Fin.ext rfl
  | ⟨1, _⟩ => exact Fin.ext rfl
  | ⟨2, _⟩ => exact Fin.ext rfl

/-- The row maximum at (b, r): the fold of max from −∞ over the row's scores, taken once more against −∞. -/
theorem rowMax_eq (x0 : TX) (x1 : TW) (x2 : TB) (x3 : TW) (x4 : TB) (b : Fin 4) (r : Fin 2048) :
    val_main_v18 (F := Ideal) x0 x1 x2 x3 x4 (ix2 b r)
      = max Spec.negInf (Finset.univ.fold max Spec.negInf (scoreRow x0 x1 x2 x3 x4 b r)) := by
  have hred : S4x2048x2048.Reduces [2] S4x2048 := by decide
  have e16 : val_main_v16 (F := Ideal) x0 x1 x2 x3 x4 (ix2 b r)
      = Finset.univ.fold max Spec.negInf (scoreRow x0 x1 x2 x3 x4 b r) := by
    unfold val_main_v16
    refine (Cert.LibRowMax.hostReduce_maximumf_single _ _ reducesTo_S4x2048x2048_S4x2048_d2 hred h_S_ (ix2 b r)).trans ?_
    refine congrArg (Finset.univ.fold max Spec.negInf) (funext fun (k : Fin 2048) => ?_)
    exact (congrArg (val_main_v15 (F := Ideal) x0 x1 x2 x3 x4) (lift_last hred b r k)).trans
      (score_eq x0 x1 x2 x3 x4 b r k)
  rw [val_main_v18_apply, val_main_v17_apply, val_main_cst_1_apply, e16]
  simp only [Ideal.maximumf_def, Ideal.ofBits_def]

/-! ## The weights, their total, the normalised weights -/

/-- The weight of key k in row (b, r): exp (score − row maximum). -/
theorem weight_eq (x0 : TX) (x1 : TW) (x2 : TB) (x3 : TW) (x4 : TB) (b : Fin 4) (r k : Fin 2048) :
    val_main_v22 (F := Ideal) x0 x1 x2 x3 x4 (ix3 b r k)
      = Ideal.exp (scoreRow x0 x1 x2 x3 x4 b r k
          - max Spec.negInf (Finset.univ.fold max Spec.negInf (scoreRow x0 x1 x2 x3 x4 b r))) := by
  have e20 : idx_main_v19 (idx_main_v20 (ix3 b r k)) = ix2 b r := funext fun a => Fin.ext (by
    match a with | ⟨0, _⟩ => rfl | ⟨1, _⟩ => rfl)
  rw [val_main_v22_apply, val_main_v21_apply, val_main_v20_apply, val_main_v19_apply, e20, score_eq, rowMax_eq]
  simp only [Ideal.hostUnary_exp_def, Ideal.subf_def]

/-- The total of row (b, r): 0 + the sum of the row's weights. -/
theorem total_eq (x0 : TX) (x1 : TW) (x2 : TB) (x3 : TW) (x4 : TB) (b : Fin 4) (r : Fin 2048) :
    val_main_v23 (F := Ideal) x0 x1 x2 x3 x4 (ix2 b r)
      = Spec.zero + ∑ k : Fin 2048, val_main_v22 (F := Ideal) x0 x1 x2 x3 x4 (ix3 b r k) := by
  have e : ∀ k : Fin 2048, idx_main_v23 (ix2 b r) k = ix3 b r k := fun k => funext fun a => Fin.ext (by
    match a with | ⟨0, _⟩ => rfl | ⟨1, _⟩ => rfl | ⟨2, _⟩ => rfl)
  rw [val_main_v23_apply, val_main_cst_2_apply]
  simp only [e, Ideal.ofBits_def]

/-- The normalised weight of key k in row (b, r): the weight divided by the row's total. -/
theorem attn_eq (x0 : TX) (x1 : TW) (x2 : TB) (x3 : TW) (x4 : TB) (b : Fin 4) (r k : Fin 2048) :
    val_main_v26 (F := Ideal) x0 x1 x2 x3 x4 (ix3 b r k)
      = Ideal.div (val_main_v22 (F := Ideal) x0 x1 x2 x3 x4 (ix3 b r k))
          (val_main_v23 (F := Ideal) x0 x1 x2 x3 x4 (ix2 b r)) := by
  have e25 : idx_main_v24 (idx_main_v25 (ix3 b r k)) = ix2 b r := funext fun a => Fin.ext (by
    match a with | ⟨0, _⟩ => rfl | ⟨1, _⟩ => rfl)
  rw [val_main_v26_apply, val_main_v25_apply, val_main_v24_apply, e25]
  simp only [Ideal.hostDivf_def]

/-! ## The result -/

/-- The reference's result at (b, r, d). -/
theorem result_eq (x0 : TX) (x1 : TW) (x2 : TB) (x3 : TW) (x4 : TB) (x5 : TW) (x6 : TB)
    (b : Fin 4) (r : Fin 2048) (d : Fin 1024) :
    val_main_v27 (F := Ideal) x0 x1 x2 x3 x4 x5 x6 (ix3 b r d)
      = Spec.divideThenSum (scoreRow x0 x1 x2 x3 x4 b r) (fun k => Spec.proj x0 x5 x6 b k d) := by
  have el : ∀ k : Fin 2048, lidx_main_v27 (ix3 b r d) k = ix3 b r k := fun k => funext fun a => Fin.ext (by
    match a with | ⟨0, _⟩ => rfl | ⟨1, _⟩ => rfl | ⟨2, _⟩ => rfl)
  have er : ∀ k : Fin 2048, ridx_main_v27 (ix3 b r d) k = ix3 b k d := fun k => funext fun a => Fin.ext (by
    match a with | ⟨0, _⟩ => rfl | ⟨1, _⟩ => rfl | ⟨2, _⟩ => rfl)
  rw [val_main_v27_apply]
  simp only [el, er, attn_eq, total_eq, weight_eq, value_eq]
  rfl

/-- The reference program's result is the "divide, then sum" arrangement of the specification. -/
theorem ref_value (x0 : TX) (x1 : TW) (x2 : TB) (x3 : TW) (x4 : TB) (x5 : TW) (x6 : TB) :
    val_main_v27 (F := Ideal) x0 x1 x2 x3 x4 x5 x6 = Cert.Spec.scaledLast x0 x1 x2 x3 x4 x5 x6 := by
  funext i
  obtain ⟨b, r, d, rfl⟩ : ∃ (b : Fin 4) (r : Fin 2048) (d : Fin 1024), i = ix3 b r d := ⟨i 0, i 1, i 2, eq_ix3 i⟩
  rw [result_eq]
  rfl

end Cert.RefValue

end
-- ==== Proof.LibAttn.lean ====
/-
  Softmax attention for ONE query row and ONE value column, on the extended reals.

  The scores of a query row `a` against the key rows `K k` are the inner products, scaled by `c`; the row's
  weights are `exp (score − max score)`; the result is the weighted mean of the values `v k`.
  Two arrangements of this computation are compared.  The first scales the query row BEFORE the inner product and
  multiplies the weighted SUM of the values by the reciprocal of the weights' total.  The second scales the inner
  product AFTERWARDS and divides every weight by the total before the values are summed.  For finite entries both are
  the same real number: the scale moves across the inner product by distributivity, the two maxima are the same
  (finite) number, every weight is a positive real, so the total is a nonzero real and division by it is
  multiplication by its reciprocal, which distributes over the sum.
-/
import Idealize.ShloMosaic.PureOps.Ideal.Laws

open scoped BigOperators

noncomputable section

namespace Cert.Attn

open Idealize.ShloMosaic

variable {ι κ : Type} [Fintype ι] [Fintype κ]

/-- The score of key `k`, the query row scaled first. -/
def scoreFirst (c : EReal) (a : ι → EReal) (K : κ → ι → EReal) (k : κ) : EReal := ∑ e, (a e * c) * K k e

/-- The score of key `k`, the inner product scaled afterwards. -/
def scoreLast (c : EReal) (a : ι → EReal) (K : κ → ι → EReal) (k : κ) : EReal := (∑ e, a e * K k e) * c

/-- Scale first; weighted sum of the values times the reciprocal of the weights' total. -/
def attnFirst (c : EReal) (a : ι → EReal) (K : κ → ι → EReal) (v : κ → EReal) : EReal :=
  (∑ k, Ideal.exp (scoreFirst c a K k - Finset.univ.fold max ⊥ (scoreFirst c a K)) * v k)
    * Ideal.div 1 (∑ k, Ideal.exp (scoreFirst c a K k - Finset.univ.fold max ⊥ (scoreFirst c a K)))

/-- Scale last; every weight divided by the total, then the values summed. -/
def attnLast (c : EReal) (a : ι → EReal) (K : κ → ι → EReal) (v : κ → EReal) : EReal :=
  ∑ k, Ideal.div (Ideal.exp (scoreLast c a K k - max ⊥ (Finset.univ.fold max ⊥ (scoreLast c a K))))
      (0 + ∑ k', Ideal.exp (scoreLast c a K k' - max ⊥ (Finset.univ.fold max ⊥ (scoreLast c a K)))) * v k

/-- One row of attention with the query row already scaled: the weighted sum of the values times the reciprocal of
    the weights' total. -/
def row (a : ι → EReal) (K : κ → ι → EReal) (v : κ → EReal) : EReal :=
  (∑ k, Ideal.exp ((∑ e, a e * K k e) - Finset.univ.fold max ⊥ (fun k' => ∑ e, a e * K k' e)) * v k)
    * Ideal.div 1 (∑ k, Ideal.exp ((∑ e, a e * K k e) - Finset.univ.fold max ⊥ (fun k' => ∑ e, a e * K k' e)))

/-- Scaling first is that row computation on the scaled query row. -/
theorem attnFirst_eq_row (c : EReal) (a : ι → EReal) (K : κ → ι → EReal) (v : κ → EReal) :
    attnFirst c a K v = row (fun e => a e * c) K v := rfl

/-- A finite sum of reals, each read as an extended real, is the real sum. -/
theorem coe_sum {α : Type} (s : Finset α) (f : α → ℝ) : ∑ i ∈ s, ((f i : ℝ) : EReal) = ((∑ i ∈ s, f i : ℝ) : EReal) := by
  classical
  refine Finset.induction_on s (by simp) (fun a s ha ih => ?_)
  rw [Finset.sum_insert ha, Finset.sum_insert ha, ih, EReal.coe_add]

/-- The maximum of finitely many reals over a nonempty index set, started from −∞, is a real. -/
theorem fold_max_real [Nonempty κ] (σ : κ → ℝ) :
    ∃ μ : ℝ, Finset.univ.fold max (⊥ : EReal) (fun k => ((σ k : ℝ) : EReal)) = (μ : EReal) := by
  have htop : Finset.univ.fold max (⊥ : EReal) (fun k => ((σ k : ℝ) : EReal)) ≠ ⊤ :=
    ne_of_lt ((Finset.fold_max_lt _).2 ⟨bot_lt_top, fun k _ => EReal.coe_lt_top _⟩)
  have hbot : Finset.univ.fold max (⊥ : EReal) (fun k => ((σ k : ℝ) : EReal)) ≠ ⊥ :=
    ne_of_gt ((Finset.lt_fold_max _).2 (Or.inr ⟨Classical.arbitrary κ, Finset.mem_univ _, EReal.bot_lt_coe _⟩))
  exact ⟨_, (EReal.coe_toReal htop hbot).symm⟩

/-- For real entries the two arrangements agree. -/
theorem attnFirst_eq_attnLast_coe [Nonempty κ] (c : ℝ) (a : ι → ℝ) (K : κ → ι → ℝ) (v : κ → ℝ) :
    attnFirst (c : EReal) (fun e => (a e : EReal)) (fun k e => (K k e : EReal)) (fun k => (v k : EReal))
      = attnLast (c : EReal) (fun e => (a e : EReal)) (fun k e => (K k e : EReal)) (fun k => (v k : EReal)) := by
  -- both scores are the real number σ k
  have hF : scoreFirst (c : EReal) (fun e => (a e : EReal)) (fun k e => (K k e : EReal))
      = fun k => (((∑ e, a e * K k e) * c : ℝ) : EReal) := by
    funext k
    unfold scoreFirst
    simp only [← EReal.coe_mul]
    rw [coe_sum, Finset.sum_mul]
    exact congrArg _ (Finset.sum_congr rfl fun e _ => by ring)
  have hL : scoreLast (c : EReal) (fun e => (a e : EReal)) (fun k e => (K k e : EReal))
      = fun k => (((∑ e, a e * K k e) * c : ℝ) : EReal) := by
    funext k
    unfold scoreLast
    simp only [← EReal.coe_mul]
    rw [coe_sum, ← EReal.coe_mul]
  obtain ⟨μ, hμ⟩ := fold_max_real (κ := κ) (fun k => (∑ e, a e * K k e) * c)
  unfold attnFirst attnLast
  rw [hF, hL, hμ, max_eq_right bot_le]
  -- the weights are positive reals, their total a nonzero real
  have hl : (∑ k : κ, Real.exp ((∑ e, a e * K k e) * c - μ)) ≠ 0 :=
    ne_of_gt (Finset.sum_pos (fun k _ => Real.exp_pos _) Finset.univ_nonempty)
  simp only [← EReal.coe_sub, Ideal.exp_coe, ← EReal.coe_mul, coe_sum, zero_add, Ideal.div_coe hl, one_mul]
  refine congrArg _ ?_
  rw [Finset.sum_mul]
  exact Finset.sum_congr rfl fun k _ => by ring

/-- For entries that are all finite the two arrangements agree. -/
theorem attnFirst_eq_attnLast [Nonempty κ] (c : EReal) (a : ι → EReal) (K : κ → ι → EReal) (v : κ → EReal)
    (hc : ∃ r : ℝ, c = r) (ha : ∀ e, ∃ r : ℝ, a e = r) (hK : ∀ k e, ∃ r : ℝ, K k e = r) (hv : ∀ k, ∃ r : ℝ, v k = r) :
    attnFirst c a K v = attnLast c a K v := by
  obtain ⟨c', rfl⟩ := hc
  choose a' ha' using ha
  choose K' hK' using hK
  choose v' hv' using hv
  obtain rfl : a = fun e => (a' e : EReal) := funext ha'
  obtain rfl : K = fun k e => (K' k e : EReal) := funext fun k => funext (hK' k)
  obtain rfl : v = fun k => (v' k : EReal) := funext hv'
  exact attnFirst_eq_attnLast_coe c' a' K' v'

end Cert.Attn

end
-- ==== Proof.Law.lean ====
/-
  The two arrangements of softmax attention agree when every entry of the input, the weights and the biases is a real
  number.

  With real entries every projection entry is a real.  The scale word is the real 1/32 and the square root of the
  word 1024 is 32, so dividing an inner product by √1024 multiplies it by 1/32; multiplying the query projection's
  weights and bias by 1/32 beforehand multiplies every entry of that projection, hence every inner product with it,
  by 1/32 (distributivity over a finite real sum).  Both arrangements therefore see the same real row of scores σ.
  The words for −∞ and 0 are −∞ and 0.  The fold of max from −∞ over the nonempty row σ is a real μ, and max −∞ μ = μ.
  Every weight exp (σ k − μ) is a positive real, so the total T is a nonzero real and division by T is multiplication
  by 1/T, which distributes over the finite sum:  (Σ_k w_k · v_k) · (1/T) = Σ_k (w_k · (1/T)) · v_k.
-/
import proofs.«138019_j57836029608017_2_alg».proof.Proof.Spec
import proofs.«138019_j57836029608017_2_alg».proof.Proof.LibAttn
import Idealize.ShloMosaic.PureOps.Ideal.Laws

open scoped BigOperators

noncomputable section

namespace Cert.Law

open Idealize.ShloMosaic Idealize.ShloMosaic.ValueIdx

/-! ## The float words -/

/-- The word for −∞ is −∞. -/
theorem negInf_eq : Spec.negInf = ⊥ := by simp [Ideal.ofBits, Ideal.ieee]

/-- The word for 0 is 0. -/
theorem zero_eq : Spec.zero = 0 := Ideal.ofBits_zero_f32

/-- The scale word is the real 1/32. -/
theorem scale_eq : Spec.scale = ((1 / 32 : ℝ) : EReal) := by
  simp [Ideal.ofBits, Ideal.ieee]
  rw [← EReal.coe_mul, EReal.coe_eq_coe_iff]; norm_num

/-- The word 1024 is the real 1024. -/
theorem n1024_eq : Spec.n1024 = ((1024 : ℝ) : EReal) := by
  simp [Ideal.ofBits, Ideal.ieee]
  rw [← EReal.coe_mul, EReal.coe_eq_coe_iff]; norm_num

/-- √1024 = 32. -/
theorem sqrt_n1024_eq : Ideal.sqrt Spec.n1024 = ((32 : ℝ) : EReal) := by
  rw [n1024_eq, Ideal.sqrt_coe, if_neg (by norm_num)]
  refine congrArg _ ?_
  rw [show (1024 : ℝ) = 32 * 32 by norm_num]
  exact Real.sqrt_mul_self (by norm_num)

/-- Dividing by √1024 is multiplying by 1/32. -/
theorem div_sqrt_n1024 (s : EReal) : Ideal.div s (Ideal.sqrt Spec.n1024) = s * ((1 / 32 : ℝ) : EReal) := by
  rw [sqrt_n1024_eq]
  exact Ideal.div_coe (by norm_num) s

/-! ## Projections and scores of real data -/

/-- The index types of an array [4, 2048, 1024], a matrix [1024, 1024], a vector [1024]. -/
abbrev I3 := (⟨3, ![4, 2048, 1024]⟩ : Shape).Idx
abbrev I2 := (⟨2, ![1024, 1024]⟩ : Shape).Idx
abbrev I1 := (⟨1, ![1024]⟩ : Shape).Idx

/-- Entry f of the projection of token (b, r), for real data:  Σ_e x[b,r,e] · W[e,f] + bias[f]. -/
def projR (x : I3 → ℝ) (W : I2 → ℝ) (bias : I1 → ℝ) (b : Fin 4) (r : Fin 2048) (f : Fin 1024) : ℝ :=
  (∑ e : Fin 1024, x (ix3 b r e) * W (ix2 e f)) + bias (ix1 f)

/-- The projection of real data is the real projection. -/
theorem proj_coe (x : I3 → ℝ) (W : I2 → ℝ) (bias : I1 → ℝ) (b : Fin 4) (r : Fin 2048) (f : Fin 1024) :
    Spec.proj (fun i => (x i : EReal)) (fun i => (W i : EReal)) (fun i => (bias i : EReal)) b r f
      = ((projR x W bias b r f : ℝ) : EReal) := by
  unfold Spec.proj projR
  simp only [← EReal.coe_mul, Cert.Attn.coe_sum, ← EReal.coe_add]

/-- With the weights and the bias multiplied by a real c beforehand, the projection of real data is c times the real
    projection. -/
theorem projScaled_coe (c : ℝ) (x : I3 → ℝ) (W : I2 → ℝ) (bias : I1 → ℝ) (b : Fin 4) (r : Fin 2048) (f : Fin 1024) :
    Spec.projScaled (c : EReal) (fun i => (x i : EReal)) (fun i => (W i : EReal)) (fun i => (bias i : EReal)) b r f
      = ((projR x W bias b r f * c : ℝ) : EReal) := by
  unfold Spec.projScaled projR
  simp only [← EReal.coe_mul, Cert.Attn.coe_sum, ← EReal.coe_add]
  refine congrArg _ ?_
  rw [add_mul, Finset.sum_mul]
  exact congrArg (· + bias (ix1 f) * c) (Finset.sum_congr rfl fun e _ => by ring)

/-- The score of real rows is the real inner product. -/
theorem score_coe (q : Fin 1024 → ℝ) (K : Fin 2048 → Fin 1024 → ℝ) (k : Fin 2048) :
    Spec.score (fun f => (q f : EReal)) (fun k f => (K k f : EReal)) k = ((∑ f : Fin 1024, q f * K k f : ℝ) : EReal) := by
  unfold Spec.score
  simp only [← EReal.coe_mul, Cert.Attn.coe_sum]

/-! ## One row: sum-then-divide against divide-then-sum -/

/-- For a real row of scores and a real column of values the two orders of normalising agree. -/
theorem sumThenDivide_eq_divideThenSum_coe (σ w : Fin 2048 → ℝ) :
    Spec.sumThenDivide (fun k => (σ k : EReal)) (fun k => (w k : EReal))
      = Spec.divideThenSum (fun k => (σ k : EReal)) (fun k => (w k : EReal)) := by
  obtain ⟨μ, hμ⟩ := Cert.Attn.fold_max_real (κ := Fin 2048) σ
  unfold Spec.sumThenDivide Spec.divideThenSum
  rw [negInf_eq, zero_eq, hμ, max_eq_right bot_le]
  -- the weights are positive reals, their total a nonzero real
  have hT : (∑ k : Fin 2048, Real.exp (σ k - μ)) ≠ 0 :=
    ne_of_gt (Finset.sum_pos (fun k _ => Real.exp_pos _) Finset.univ_nonempty)
  simp only [← EReal.coe_sub, Ideal.exp_coe, ← EReal.coe_mul, Cert.Attn.coe_sum, zero_add, Ideal.div_coe hT]
  refine congrArg _ ?_
  rw [Finset.sum_mul]
  exact Finset.sum_congr rfl fun k _ => by ring

/-! ## The law -/

/-- For real data the two arrangements of attention agree. -/
theorem scaledFirst_eq_scaledLast_coe (x : I3 → ℝ) (Wq : I2 → ℝ) (bq : I1 → ℝ) (Wk : I2 → ℝ) (bk : I1 → ℝ)
    (Wv : I2 → ℝ) (bv : I1 → ℝ) :
    Spec.scaledFirst (fun i => (x i : EReal)) (fun i => (Wq i : EReal)) (fun i => (bq i : EReal))
        (fun i => (Wk i : EReal)) (fun i => (bk i : EReal)) (fun i => (Wv i : EReal)) (fun i => (bv i : EReal))
      = Spec.scaledLast (fun i => (x i : EReal)) (fun i => (Wq i : EReal)) (fun i => (bq i : EReal))
        (fun i => (Wk i : EReal)) (fun i => (bk i : EReal)) (fun i => (Wv i : EReal)) (fun i => (bv i : EReal)) := by
  funext i
  obtain ⟨b, r, d, rfl⟩ : ∃ (b : Fin 4) (r : Fin 2048) (d : Fin 1024), i = ix3 b r d := ⟨i 0, i 1, i 2, eq_ix3 i⟩
  -- the real row of scores both arrangements see, and the real column of values
  let σ : Fin 2048 → ℝ := fun k => (∑ f : Fin 1024, projR x Wq bq b r f * projR x Wk bk b k f) * (1 / 32)
  let w : Fin 2048 → ℝ := fun k => projR x Wv bv b k d
  have hfirst : Spec.score (Spec.projScaled Spec.scale (fun i => (x i : EReal)) (fun i => (Wq i : EReal))
        (fun i => (bq i : EReal)) b r)
      (fun k => Spec.proj (fun i => (x i : EReal)) (fun i => (Wk i : EReal)) (fun i => (bk i : EReal)) b k)
      = fun k => ((σ k : ℝ) : EReal) := by
    funext k
    have hq : Spec.projScaled Spec.scale (fun i => (x i : EReal)) (fun i => (Wq i : EReal)) (fun i => (bq i : EReal)) b r
        = fun f => ((projR x Wq bq b r f * (1 / 32) : ℝ) : EReal) :=
      funext fun f => by rw [scale_eq]; exact projScaled_coe (1 / 32) x Wq bq b r f
    have hk : (fun k => Spec.proj (fun i => (x i : EReal)) (fun i => (Wk i : EReal)) (fun i => (bk i : EReal)) b k)
        = fun k f => ((projR x Wk bk b k f : ℝ) : EReal) :=
      funext fun k => funext fun f => proj_coe x Wk bk b k f
    rw [hq, hk, score_coe]
    refine congrArg _ ?_
    show _ = (∑ f : Fin 1024, projR x Wq bq b r f * projR x Wk bk b k f) * (1 / 32)
    rw [Finset.sum_mul]
    exact Finset.sum_congr rfl fun f _ => by ring
  have hlast : (fun k => Ideal.div (Spec.score
        (Spec.proj (fun i => (x i : EReal)) (fun i => (Wq i : EReal)) (fun i => (bq i : EReal)) b r)
        (fun k' => Spec.proj (fun i => (x i : EReal)) (fun i => (Wk i : EReal)) (fun i => (bk i : EReal)) b k') k)
        (Ideal.sqrt Spec.n1024))
      = fun k => ((σ k : ℝ) : EReal) := by
    funext k
    have hq : Spec.proj (fun i => (x i : EReal)) (fun i => (Wq i : EReal)) (fun i => (bq i : EReal)) b r
        = fun f => ((projR x Wq bq b r f : ℝ) : EReal) :=
      funext fun f => proj_coe x Wq bq b r f
    have hk : (fun k' => Spec.proj (fun i => (x i : EReal)) (fun i => (Wk i : EReal)) (fun i => (bk i : EReal)) b k')
        = fun k' f => ((projR x Wk bk b k' f : ℝ) : EReal) :=
      funext fun k' => funext fun f => proj_coe x Wk bk b k' f
    rw [div_sqrt_n1024, hq, hk, score_coe, ← EReal.coe_mul]
  have hval : (fun k => Spec.proj (fun i => (x i : EReal)) (fun i => (Wv i : EReal)) (fun i => (bv i : EReal)) b k d)
      = fun k => ((w k : ℝ) : EReal) :=
    funext fun k => proj_coe x Wv bv b k d
  show Spec.sumThenDivide
      (Spec.score (Spec.projScaled Spec.scale (fun i => (x i : EReal)) (fun i => (Wq i : EReal))
          (fun i => (bq i : EReal)) b r)
        (fun k => Spec.proj (fun i => (x i : EReal)) (fun i => (Wk i : EReal)) (fun i => (bk i : EReal)) b k))
      (fun k => Spec.proj (fun i => (x i : EReal)) (fun i => (Wv i : EReal)) (fun i => (bv i : EReal)) b k d)
    = Spec.divideThenSum
      (fun k => Ideal.div (Spec.score
        (Spec.proj (fun i => (x i : EReal)) (fun i => (Wq i : EReal)) (fun i => (bq i : EReal)) b r)
        (fun k' => Spec.proj (fun i => (x i : EReal)) (fun i => (Wk i : EReal)) (fun i => (bk i : EReal)) b k') k)
        (Ideal.sqrt Spec.n1024))
      (fun k => Spec.proj (fun i => (x i : EReal)) (fun i => (Wv i : EReal)) (fun i => (bv i : EReal)) b k d)
  rw [hfirst, hlast, hval]
  exact sumThenDivide_eq_divideThenSum_coe σ w

/-- When every entry of the input, the weights and the biases is a real number, the two arrangements agree. -/
theorem scaledFirst_eq_scaledLast (x : Spec.Arr3) (Wq : Spec.Mat) (bq : Spec.Vec1) (Wk : Spec.Mat) (bk : Spec.Vec1)
    (Wv : Spec.Mat) (bv : Spec.Vec1)
    (hx : ∀ i, ∃ r : ℝ, x i = r) (hWq : ∀ i, ∃ r : ℝ, Wq i = r) (hbq : ∀ i, ∃ r : ℝ, bq i = r)
    (hWk : ∀ i, ∃ r : ℝ, Wk i = r) (hbk : ∀ i, ∃ r : ℝ, bk i = r)
    (hWv : ∀ i, ∃ r : ℝ, Wv i = r) (hbv : ∀ i, ∃ r : ℝ, bv i = r) :
    Cert.Spec.scaledFirst x Wq bq Wk bk Wv bv = Cert.Spec.scaledLast x Wq bq Wk bk Wv bv := by
  choose x' hx' using hx
  choose Wq' hWq' using hWq
  choose bq' hbq' using hbq
  choose Wk' hWk' using hWk
  choose bk' hbk' using hbk
  choose Wv' hWv' using hWv
  choose bv' hbv' using hbv
  obtain rfl : x = fun i => (x' i : EReal) := funext hx'
  obtain rfl : Wq = fun i => (Wq' i : EReal) := funext hWq'
  obtain rfl : bq = fun i => (bq' i : EReal) := funext hbq'
  obtain rfl : Wk = fun i => (Wk' i : EReal) := funext hWk'
  obtain rfl : bk = fun i => (bk' i : EReal) := funext hbk'
  obtain rfl : Wv = fun i => (Wv' i : EReal) := funext hWv'
  obtain rfl : bv = fun i => (bv' i : EReal) := funext hbv'
  exact scaledFirst_eq_scaledLast_coe x' Wq' bq' Wk' bk' Wv' bv'

end Cert.Law

end
-- ==== Proof.LibFinite.lean ====
/-
  "Every entry is finite", read back from a printed precondition.

  A precondition `jnp.all (|x| < +∞)` prints as an all-reduction by `and`, from the constant 1, of the one-bit array of
  the comparisons `|x i| < +∞`, the bound broadcast from a scalar.  If the reduction is 1 then every comparison is 1; and
  an extended real whose absolute value is below +∞ is neither infinity, so it is a real.
-/
import Idealize.ShloMosaic.Lib.ReduceAll
import Idealize.ShloMosaic.Lib.ValueIdx
import Idealize.ShloMosaic.PureOps.Ideal.Laws

noncomputable section

namespace Cert.LibFinite

open Idealize.ShloMosaic

/-- The scalar shape has one index. -/
instance : Subsingleton (⟨0, ![]⟩ : Shape).Idx := ⟨fun a b => funext fun d => d.elim0⟩

/-- An extended real whose absolute value is below +∞ is a real. -/
theorem real_of_abs_lt (x : EReal) (h : Ideal.cmp .olt (max x (-x)) (Ideal.ofBits .f32 0x7F800000#32) = 1#1) :
    ∃ r : ℝ, x = r := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- One all-reduction of the comparisons "|x i| < +∞" being 1 makes every entry of `x` a real. -/
theorem all_real_of_reduce {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ValueIdx.ix0 = 1#1) (i : s.Idx) : ∃ r : ℝ, x i = r :=
  real_of_abs_lt (x i) (Host.reduce_andi_all _ _ hr hu ValueIdx.ix0 e i)

end Cert.LibFinite

end
-- ==== Proof.Finite.lean ====
/-
  The precondition read back: when "every input entry is finite" holds, every entry of every argument array is a real.

  The printed precondition is the conjunction, by the one-bit "and", of seven all-reductions, one per argument array:
  each reduces by "and", from 1, the one-bit array of the comparisons  |a i| < +∞.  The conjunction being 1 at its one
  index makes each of the seven reductions 1 there; a reduction by "and" that is 1 met only 1s, so every comparison
  holds; and an extended real whose absolute value is below +∞ is neither infinity, that is, it is a real.
-/
import proofs.«138019_j57836029608017_2_alg».proof.Pre_finite_inputs
import proofs.«138019_j57836029608017_2_alg».proof.Proof.LibFinite

noncomputable section

namespace Cert.Finite

open Idealize.ShloMosaic Cert.Pre_finite_inputs

/-- A pointwise "and" of two one-bit arrays that is 1 at an index has both operands 1 there. -/
theorem andi_apply_eq_one {s : Shape} (x y : IVec s 1) (i : s.Idx) (h : andi x y i = 1#1) : x i = 1#1 ∧ y i = 1#1 :=
  IntOp.andi_eq_one.1 h

/-- If the printed precondition is 1, every entry of each of the seven argument arrays is a real. -/
theorem reals_of_pre [Cert.Pre_finite_inputs.Facts]
    (a0 : (⟨S4x2048x1024, .f32⟩ : BufTy).Contents (Elt Ideal)) (a1 : (⟨S1024x1024, .f32⟩ : BufTy).Contents (Elt Ideal))
    (a2 : (⟨S1024, .f32⟩ : BufTy).Contents (Elt Ideal)) (a3 : (⟨S1024x1024, .f32⟩ : BufTy).Contents (Elt Ideal))
    (a4 : (⟨S1024, .f32⟩ : BufTy).Contents (Elt Ideal)) (a5 : (⟨S1024x1024, .f32⟩ : BufTy).Contents (Elt Ideal))
    (a6 : (⟨S1024, .f32⟩ : BufTy).Contents (Elt Ideal))
    (h : Cert.Pre_finite_inputs.fn (F := Ideal) a0 a1 a2 a3 a4 a5 a6 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) ∧ (∀ i, ∃ r : ℝ, a5 i = r) ∧ (∀ i, ∃ r : ℝ, a6 i = r) := by
  have h0 := congrFun h ValueIdx.ix0
  dsimp only [Cert.Pre_finite_inputs.fn, Cert.Pre_finite_inputs.fn_part1] at h0
  obtain ⟨h5, e6⟩ := andi_apply_eq_one _ _ _ h0
  obtain ⟨h4, e5⟩ := andi_apply_eq_one _ _ _ h5
  obtain ⟨h3, e4⟩ := andi_apply_eq_one _ _ _ h4
  obtain ⟨h2, e3⟩ := andi_apply_eq_one _ _ _ h3
  obtain ⟨h1, e2⟩ := andi_apply_eq_one _ _ _ h2
  obtain ⟨e0, e1⟩ := andi_apply_eq_one _ _ _ h1
  exact ⟨Cert.LibFinite.all_real_of_reduce a0 _ _ _ e0, Cert.LibFinite.all_real_of_reduce a1 _ _ _ e1,
    Cert.LibFinite.all_real_of_reduce a2 _ _ _ e2, Cert.LibFinite.all_real_of_reduce a3 _ _ _ e3,
    Cert.LibFinite.all_real_of_reduce a4 _ _ _ e4, Cert.LibFinite.all_real_of_reduce a5 _ _ _ e5,
    Cert.LibFinite.all_real_of_reduce a6 _ _ _ e6⟩

end Cert.Finite

end
-- ==== Proof.KernelRun.lean ====
/-
  The idealized kernel's run, with its result kept.

  @main is four segments: the host operations that scale, re-lay and convert the weights; the first pallas_call (the
  key and value projections, 16 blocks of 512 rows); two reshapes; the second pallas_call (the fused query projection
  and attention, 4 × 8 blocks of 256 rows). Every weakly fair execution runs them in order and ends with every
  unscoped buffer of a core at the contents the last segment leaves. Read at the result array this is what the second
  pallas_call's write-backs leave; read at an argument array it is what was launched, since nothing writes one.
-/
import proofs.«138019_j57836029608017_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at the contents the last
    segment leaves there and the seven argument arrays end as launched. -/
theorem run_result : θ_run defs (onTc (τ := τ) (main (F := F))) ⟨m, fun _ => 0, ρ⟩ (fun r => ∀ c : Dev nD,
      r.2.mem ((c.tc : Thread nD τ).loc main_v14) = W4 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v14 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Result

end
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.KvBody.lean ====
/-
  The key/value projection body at one grid point, read entry by entry on the extended reals.

  The body takes a block of 512 token rows [512, 1024], a weight matrix [1024, 1024] and its bias as one row
  [1, 1024], for the keys and again for the values. A format change is the identity on the extended reals and a
  matrix product into zeros is a plain sum, so each stored entry (r, f) is  Σ_e x[r,e] · W[e,f] + bias[f].
-/
import proofs.«138019_j57836029608017_2_alg».proof.Proof.Gen.KernelIdeal.Skeleton
import proofs.«138019_j57836029608017_2_alg».proof.Proof.LibMatmul
import Idealize.ShloMosaic.Lib.ValueLayout
import Idealize.ShloMosaic.Lib.Pipeline.Value
import Idealize.ShloMosaic.PureOps.Ideal.Laws

open scoped BigOperators

noncomputable section

namespace Cert.KernelIdeal.Body

open Cert.KernelIdeal Cert.KernelIdeal.Gen Idealize.ShloMosaic Idealize.ShloMosaic.ValueIdx

/-- [512, 1024] × [1024, 1024]: the left column axis against the right row axis. -/
abbrev Dp := dot_S512x1024_S1024x1024_S512x1024_1_0_0_1_n_n

theorem Dp_l0 (j : S512x1024.Idx) (q : Dp.contr.Idx) : (Dp.lhsIdx j q 0).val = (j 0).val := by
  unfold DotDims.lhsIdx
  rw [dif_neg (show ¬(0 : Fin S512x1024.rank) ∈ Dp.lhsBatch by decide), dif_pos (show (0 : Fin S512x1024.rank) ∈ Dp.lhsNonContracting by decide)]
  rfl
theorem Dp_l1 (j : S512x1024.Idx) (q : Dp.contr.Idx) : (Dp.lhsIdx j q 1).val = (q ⟨0, by decide⟩).val :=
  Dp.lhsIdx_val_of_single rfl j q
theorem Dp_r0 (j : S512x1024.Idx) (q : Dp.contr.Idx) : (Dp.rhsIdx j q 0).val = (q ⟨0, by decide⟩).val :=
  Dp.rhsIdx_val_of_single rfl j q
theorem Dp_r1 (j : S512x1024.Idx) (q : Dp.contr.Idx) : (Dp.rhsIdx j q 1).val = (j 1).val := by
  unfold DotDims.rhsIdx
  rw [dif_neg (show ¬(1 : Fin S1024x1024.rank) ∈ Dp.rhsBatch by decide), dif_pos (show (1 : Fin S1024x1024.rank) ∈ Dp.rhsNonContracting by decide)]
  rfl

/-- A block of rows times a weight matrix plus a bias row, at entry (r, f). -/
theorem proj_apply (x : FVec Ideal S512x1024 .bf16) (W : FVec Ideal S1024x1024 .bf16) (bias : FVec Ideal S1x1024 .f32)
    (r : Fin 512) (f : Fin 1024) :
    addf (matmul Dp none x W (constant S512x1024 .f32 0x00000000#32)) (broadcastTo S512x1024 bias broadcasts_S1x1024_S512x1024) (ix2 r f)
      = (∑ e : Fin 1024, x (ix2 r e) * W (ix2 e f)) + bias (ix2 (0 : Fin 1) f) := by
  rw [addf_apply]
  exact congrArg₂ (· + ·) (Cert.LibMatmul.matmul_zero_ix2 Dp none rfl rfl Dp_l0 Dp_l1 Dp_r0 Dp_r1 x W (ix2 r f))
    (broadcastTo_1b_ab_apply bias _ r f)

/-- The key block's stored entry (r, f). -/
theorem key_pay_apply (x : FVec Ideal S512x1024 .f32) (W : FVec Ideal S1024x1024 .bf16) (bias : FVec Ideal S1x1024 .f32)
    (r : Fin 512) (f : Fin 1024) :
    k0_pay2 (F := Ideal) x W bias (ix2 r f) = (∑ e : Fin 1024, x (ix2 r e) * W (ix2 e f)) + bias (ix2 (0 : Fin 1) f) := by
  unfold k0_pay2 k0_pay1
  rw [truncf_apply]
  refine (proj_apply _ _ _ r f).trans ?_
  simp only [truncf_apply, shapeCast_self]

/-- The value block's stored entry (r, f). -/
theorem value_pay_apply (x : FVec Ideal S512x1024 .f32) (W : FVec Ideal S1024x1024 .bf16) (bias : FVec Ideal S1x1024 .f32)
    (r : Fin 512) (f : Fin 1024) :
    k0_pay3 (F := Ideal) x W bias (ix2 r f) = (∑ e : Fin 1024, x (ix2 r e) * W (ix2 e f)) + bias (ix2 (0 : Fin 1) f) := by
  unfold k0_pay3 k0_pay1
  rw [truncf_apply]
  refine (proj_apply _ _ _ r f).trans ?_
  simp only [truncf_apply, shapeCast_self]

end Cert.KernelIdeal.Body

end
-- ==== Proof.KvArray.lean ====
/-
  The key and value arrays after the first pallas_call.

  The grid has 16 points; point t stages rows 512·t … 512·t + 511 of the token matrix [8192, 1024], the whole weight
  matrix and the bias row, and writes back rows 512·t … 512·t + 511 of the result. A stored entry (r, f) of the block
  is the projection of the block's row r, so every written block is the restriction of ONE function of the arrays the
  call was entered with: entry (n, f) = Σ_e X[n,e] · W[e,f] + bias[f]. The 16 blocks cover all 8192 rows.
-/
import proofs.«138019_j57836029608017_2_alg».proof.Proof.Gen.KernelIdeal.Frame
import proofs.«138019_j57836029608017_2_alg».proof.Proof.KvBody
import Idealize.ShloMosaic.Lib.Pipeline.Value

set_option maxRecDepth 16384

open scoped BigOperators

noncomputable section

namespace Cert.KernelIdeal.Region0

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

/-- The projection of every row of a token matrix [8192, 1024]. -/
def projRows (X : S8192x1024.Idx → EReal) (W : S1024x1024.Idx → EReal) (bias : S1x1024.Idx → EReal) :
    S8192x1024.Idx → EReal :=
  fun i => (∑ e : Fin 1024, X (ix2 (i 0) e) * W (ix2 e (i 1))) + bias (ix2 (0 : Fin 1) (i 1))

theorem hz : (![0, 0] : Fin 2 → Nat) = fun _ => 0 := funext fun a => by fin_cases a <;> rfl

/-- A stored block is the restriction of the whole projection: if the staged token block is the token matrix read
    through an embedding that shifts rows by o and keeps columns, and the staged weights and bias are the whole
    arrays, then the stored entry j is the projection at the embedded index. -/
theorem block_eq (pay : FVec Ideal S512x1024 .f32 → FVec Ideal S1024x1024 .bf16 → FVec Ideal S1x1024 .f32 → FVec Ideal S512x1024 .bf16)
    (hpay : ∀ x W b (r : Fin 512) (f : Fin 1024), pay x W b (ix2 r f) = (∑ e : Fin 1024, x (ix2 r e) * W (ix2 e f)) + b (ix2 (0 : Fin 1) f))
    (X : S8192x1024.Idx → EReal) (W : S1024x1024.Idx → EReal) (bias : S1x1024.Idx → EReal)
    (x0 : FVec Ideal S512x1024 .f32) (x1 : FVec Ideal S1024x1024 .bf16) (x2 : FVec Ideal S1x1024 .f32)
    (emb : S512x1024.Idx → S8192x1024.Idx) (o : Nat)
    (hemb0 : ∀ y, (emb y 0).val = o + (y 0).val) (hemb1 : ∀ y, (emb y 1).val = (y 1).val)
    (h0 : ∀ y, x0 y = X (emb y)) (h1 : ∀ y, x1 y = W y) (h2 : ∀ y, x2 y = bias y) (j : S512x1024.Idx) :
    pay x0 x1 x2 j = projRows X W bias (emb j) := by
  obtain ⟨r, f, rfl⟩ : ∃ (r : Fin 512) (f : Fin 1024), j = ix2 r f := ⟨j 0, j 1, eq_ix2 j⟩
  rw [hpay]
  unfold projRows
  have ef : (emb (ix2 r f)) 1 = f := Fin.ext (hemb1 _)
  refine congrArg₂ (· + ·) (Finset.sum_congr rfl fun e _ => ?_) ?_
  · rw [h0, h1, ef]
    refine congrArg (fun z => X z * W (ix2 e f)) ?_
    funext a
    apply Fin.ext
    match a with
    | ⟨0, _⟩ => exact (hemb0 (ix2 r e)).trans (hemb0 (ix2 r f)).symm
    | ⟨1, _⟩ => exact hemb1 (ix2 r e)
  · rw [h2, ef]

variable (V : (c : Dev nD) → (b : Ref sig .tc) → Buf (Elt Ideal) ((c : Thread nD τ).loc b))

/-- The printed index maps over the grid: the token window and both result windows are at block row t, every other
    window at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- What point t writes back into the key array is block t of the projection by the key weights. -/
theorem flushed5_eq (c : Dev nD) (t : Fin cfg0.N) :
    (dat0 V c).flushed 5 t
      = ((cfg0.win 5).blk t).view.read (Elt Ideal) (projRows (V c main_v0) (V c main_v7) (V c main_v9)) := by
  show (cfg0.win 5).cut (grid0.coords t) ((dat0 V c).after 5 t) = _
  rw [after0_5]
  unfold out0_5
  rw [View.canon_unit_zero hz]
  simp only [View.ld_unit_zero (S := S512x1024) hz, View.ld_unit_zero (S := S1024x1024) hz, View.ld_unit_zero (S := S1x1024) hz]
  obtain ⟨a0, a1, b0, b1, c0, c1, d0, d1, e0, e1, f0, f1, g0, g1⟩ := idx_facts t
  funext j
  show k0_pay2 (iblk0 V c 0 t) (iblk0 V c 1 t) (iblk0 V c 2 t) j
      = projRows (V c main_v0) (V c main_v7) (V c main_v9) (((cfg0.win 5).blk t).view.emb j)
  refine block_eq (k0_pay2 (F := Ideal)) key_pay_apply (V c main_v0) (V c main_v7) (V c main_v9)
    (iblk0 V c 0 t) (iblk0 V c 1 t) (iblk0 V c 2 t) (((cfg0.win 5).blk t).view.emb) (t.val * 512) ?_ ?_ ?_ ?_ ?_ j
  · intro y
    show win0_5.index t (0 : Fin 2) * 512 + 1 * (y 0).val = t.val * 512 + (y 0).val
    omega
  · intro y
    show win0_5.index t (1 : Fin 2) * 1024 + 1 * (y 1).val = (y 1).val
    omega
  · intro y
    show V c main_v0 (((cfg0.win 0).blk t).view.emb y) = V c main_v0 (((cfg0.win 5).blk t).view.emb y)
    refine congrArg (V c main_v0) ?_
    funext a
    apply Fin.ext
    match a with
    | ⟨0, _⟩ => show win0_0.index t (0 : Fin 2) * 512 + 1 * (y 0).val = win0_5.index t (0 : Fin 2) * 512 + 1 * (y 0).val; omega
    | ⟨1, _⟩ => show win0_0.index t (1 : Fin 2) * 1024 + 1 * (y 1).val = win0_5.index t (1 : Fin 2) * 1024 + 1 * (y 1).val; omega
  · intro y
    show V c main_v7 (((cfg0.win 1).blk t).view.emb y) = V c main_v7 y
    refine congrArg (V c main_v7) ?_
    funext a
    apply Fin.ext
    match a with
    | ⟨0, _⟩ => show win0_1.index t (0 : Fin 2) * 1024 + 1 * (y 0).val = (y 0).val; omega
    | ⟨1, _⟩ => show win0_1.index t (1 : Fin 2) * 1024 + 1 * (y 1).val = (y 1).val; omega
  · intro y
    show V c main_v9 (((cfg0.win 2).blk t).view.emb y) = V c main_v9 y
    refine congrArg (V c main_v9) ?_
    funext a
    apply Fin.ext
    match a with
    | ⟨0, _⟩ => show win0_2.index t (0 : Fin 2) * 1 + 1 * (y 0).val = (y 0).val; omega
    | ⟨1, _⟩ => show win0_2.index t (1 : Fin 2) * 1024 + 1 * (y 1).val = (y 1).val; omega

/-- An index of the key array is in point t's block iff each coordinate is in the block's range on its axis. -/
theorem mem_blk5 (t : Fin cfg0.N) (i : S8192x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v11_0).slice (win0_5.rect t)).set ↔ _
  rw [View.set_slice_whole, Rect.mem_set_unit]
  exact Iff.rfl

/-- Every row of the key array lies in the block of the point  row / 512. -/
theorem cover5 (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 16 := N_0
  let t : Fin cfg0.N := ⟨(i 0).val / 512, by rw [hN]; omega⟩
  have ht : t.val = (i 0).val / 512 := rfl
  obtain ⟨a0, a1, b0, b1, c0, c1, d0, d1, e0, e1, f0, f1, g0, g1⟩ := idx_facts t
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- The key array after the call: the projection, by the key weights and bias, of the token matrix the call was
    entered with. -/
theorem final5 (c : Dev nD) :
    (dat0 V c).arrAt 5 cfg0.N = projRows (V c main_v0) (V c main_v7) (V c main_v9) :=
  (dat0 V c).arrAt_eq_of_cover 5 (projRows (V c main_v0) (V c main_v7) (V c main_v9)) (fun t _ => flushed5_eq V c t) cover5

/-- What point t writes back into the value array is block t of the projection by the value weights. -/
theorem flushed6_eq (c : Dev nD) (t : Fin cfg0.N) :
    (dat0 V c).flushed 6 t
      = ((cfg0.win 6).blk t).view.read (Elt Ideal) (projRows (V c main_v0) (V c main_v8) (V c main_v10)) := by
  show (cfg0.win 6).cut (grid0.coords t) ((dat0 V c).after 6 t) = _
  rw [after0_6]
  unfold out0_6
  rw [View.canon_unit_zero hz]
  simp only [View.ld_unit_zero (S := S512x1024) hz, View.ld_unit_zero (S := S1024x1024) hz, View.ld_unit_zero (S := S1x1024) hz]
  obtain ⟨a0, a1, b0, b1, c0, c1, d0, d1, e0, e1, f0, f1, g0, g1⟩ := idx_facts t
  funext j
  show k0_pay3 (iblk0 V c 0 t) (iblk0 V c 3 t) (iblk0 V c 4 t) j
      = projRows (V c main_v0) (V c main_v8) (V c main_v10) (((cfg0.win 6).blk t).view.emb j)
  refine block_eq (k0_pay3 (F := Ideal)) value_pay_apply (V c main_v0) (V c main_v8) (V c main_v10)
    (iblk0 V c 0 t) (iblk0 V c 3 t) (iblk0 V c 4 t) (((cfg0.win 6).blk t).view.emb) (t.val * 512) ?_ ?_ ?_ ?_ ?_ j
  · intro y
    show win0_6.index t (0 : Fin 2) * 512 + 1 * (y 0).val = t.val * 512 + (y 0).val
    omega
  · intro y
    show win0_6.index t (1 : Fin 2) * 1024 + 1 * (y 1).val = (y 1).val
    omega
  · intro y
    show V c main_v0 (((cfg0.win 0).blk t).view.emb y) = V c main_v0 (((cfg0.win 6).blk t).view.emb y)
    refine congrArg (V c main_v0) ?_
    funext a
    apply Fin.ext
    match a with
    | ⟨0, _⟩ => show win0_0.index t (0 : Fin 2) * 512 + 1 * (y 0).val = win0_6.index t (0 : Fin 2) * 512 + 1 * (y 0).val; omega
    | ⟨1, _⟩ => show win0_0.index t (1 : Fin 2) * 1024 + 1 * (y 1).val = win0_6.index t (1 : Fin 2) * 1024 + 1 * (y 1).val; omega
  · intro y
    show V c main_v8 (((cfg0.win 3).blk t).view.emb y) = V c main_v8 y
    refine congrArg (V c main_v8) ?_
    funext a
    apply Fin.ext
    match a with
    | ⟨0, _⟩ => show win0_3.index t (0 : Fin 2) * 1024 + 1 * (y 0).val = (y 0).val; omega
    | ⟨1, _⟩ => show win0_3.index t (1 : Fin 2) * 1024 + 1 * (y 1).val = (y 1).val; omega
  · intro y
    show V c main_v10 (((cfg0.win 4).blk t).view.emb y) = V c main_v10 y
    refine congrArg (V c main_v10) ?_
    funext a
    apply Fin.ext
    match a with
    | ⟨0, _⟩ => show win0_4.index t (0 : Fin 2) * 1 + 1 * (y 0).val = (y 0).val; omega
    | ⟨1, _⟩ => show win0_4.index t (1 : Fin 2) * 1024 + 1 * (y 1).val = (y 1).val; omega

/-- An index of the value array is in point t's block iff each coordinate is in the block's range on its axis. -/
theorem mem_blk6 (t : Fin cfg0.N) (i : S8192x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v11_1).slice (win0_6.rect t)).set ↔ _
  rw [View.set_slice_whole, Rect.mem_set_unit]
  exact Iff.rfl

/-- Every row of the value array lies in the block of the point  row / 512. -/
theorem cover6 (i : S8192x1024.Idx) :
    ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 16 := N_0
  let t : Fin cfg0.N := ⟨(i 0).val / 512, by rw [hN]; omega⟩
  have ht : t.val = (i 0).val / 512 := rfl
  obtain ⟨a0, a1, b0, b1, c0, c1, d0, d1, e0, e1, f0, f1, g0, g1⟩ := idx_facts t
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

/-- The value array after the call: the projection, by the value weights and bias, of the token matrix the call was
    entered with. -/
theorem final6 (c : Dev nD) :
    (dat0 V c).arrAt 6 cfg0.N = projRows (V c main_v0) (V c main_v8) (V c main_v10) :=
  (dat0 V c).arrAt_eq_of_cover 6 (projRows (V c main_v0) (V c main_v8) (V c main_v10)) (fun t _ => flushed6_eq V c t) cover6

end Cert.KernelIdeal.Region0

end
-- ==== Proof.LibMatmulT.lean ====
/-
  A matrix product that contracts the LAST axis of both operands, [a, K] × [b, K] → [a, b], accumulated into the zero
  matrix and read at an entry over the extended reals: entry (i, j) is the sum over k of the left operand at (i, k)
  times the right operand at (j, k) — the product of the left matrix with the transpose of the right one.
-/
import Idealize.ShloMosaic.Lib.ValueIdx
import Idealize.ShloMosaic.PureOps.Ideal.Laws

open scoped BigOperators

namespace Idealize.ShloMosaic.ValueIdx

open Idealize.ShloMosaic

/-- Let the dimension numbers `D` of a product [a, K] × [b, K] → [a, b] contract one axis of extent `K` (`hr`, `hs`), and let
    the operand indices they name at result index `j` and contraction index `q` be (j₀, q) on the left (`hl0`, `hl1`) and
    (j₁, q) on the right (`hr0`, `hr1`). Then the product into the zero accumulator, read at (i, j) over the extended reals,
    is `∑ k, lhs (i, k) * rhs (j, k)`: the contraction's index set is matched with `Fin K` and the sum re-indexed. -/
theorem matmulT_zero_apply {a K b : ℕ} {φ₁ φ₂ : FTy}
    (D : DotDims ⟨2, ![a, K]⟩ ⟨2, ![b, K]⟩ ⟨2, ![a, b]⟩) (prec : Option ContractPrecision)
    (hr : D.contr.rank = 1) (hs : D.contr.size ⟨0, by omega⟩ = K)
    (hl0 : ∀ (j : (⟨2, ![a, b]⟩ : Shape).Idx) (q : D.contr.Idx), (D.lhsIdx j q 0).val = (j 0).val)
    (hl1 : ∀ (j : (⟨2, ![a, b]⟩ : Shape).Idx) (q : D.contr.Idx), (D.lhsIdx j q 1).val = (q ⟨0, by omega⟩).val)
    (hr0 : ∀ (j : (⟨2, ![a, b]⟩ : Shape).Idx) (q : D.contr.Idx), (D.rhsIdx j q 0).val = (j 1).val)
    (hr1 : ∀ (j : (⟨2, ![a, b]⟩ : Shape).Idx) (q : D.contr.Idx), (D.rhsIdx j q 1).val = (q ⟨0, by omega⟩).val)
    (lhs : FVec Ideal ⟨2, ![a, K]⟩ φ₁) (rhs : FVec Ideal ⟨2, ![b, K]⟩ φ₂) (i : Fin a) (j : Fin b) :
    matmul D prec lhs rhs (constant (F := Ideal) ⟨2, ![a, b]⟩ .f32 0x00000000#32) (ix2 i j)
      = ∑ k : Fin K, lhs (ix2 i k) * rhs (ix2 j k) := by
  show FloatOps.matmul D prec lhs rhs (constant (F := Ideal) ⟨2, ![a, b]⟩ .f32 0x00000000#32) (ix2 i j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 i j) ((contrEquiv1 D K hr hs).symm k) = ix2 i k := funext fun ax => Fin.ext (by
    match ax with
    | ⟨0, _⟩ => exact hl0 _ _
    | ⟨1, _⟩ => exact (hl1 _ _).trans hk)
  have er : D.rhsIdx (ix2 i j) ((contrEquiv1 D K hr hs).symm k) = ix2 j k := funext fun ax => Fin.ext (by
    match ax with
    | ⟨0, _⟩ => exact hr0 _ _
    | ⟨1, _⟩ => exact (hr1 _ _).trans hk)
  rw [el, er]

end Idealize.ShloMosaic.ValueIdx
-- ==== Proof.LibRowSum.lean ====
/-
  A sum along the last axis of a matrix, read at a row.

  For x of shape [a, b], the kernel's lane reduction with neutral accumulator and the host's reduce with initial value
  init, both along axis 1, read at row p are the finite sum over k : Fin b of x (p, k) (the host's with init added in
  front): the source index over row p with coordinate k on the dropped axis is (p, k).
-/
import Idealize.ShloMosaic.PureOps.Ideal.Laws
import Idealize.ShloMosaic.Lib.ValueIdx

noncomputable section

namespace Cert.LibRowSum

open Idealize.ShloMosaic Idealize.ShloMosaic.ValueIdx

/-- Over row p of an [a, b] matrix, the source index with coordinate k on axis 1 is (p, k). -/
theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- The kernel's lane sum of an [a, b] matrix at row p is the sum of the row's entries. -/
theorem multiReduction_add_row {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an [a, b] matrix along axis 1 at row p is the initial value plus the sum of the row's entries. -/
theorem hostReduceAdd_row {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

end Cert.LibRowSum

end
-- ==== Proof.LibColumn.lean ====
/-
  A column kept by a reduction ("keepdims"): the two layout steps that turn a vector of row results into
  a matrix with one value per row, each read at an index written by coordinates.
-/
import Idealize.ShloMosaic.Lib.Pipeline.Value
import Idealize.ShloMosaic.Lib.ValueIdx

namespace Idealize.ShloMosaic.ValueIdx

variable {α : Type}

/-- An `[a]` vector cast to the column `[a, 1]` reads, at `(i, u)`, the operand at `i`, whatever the
    unit coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b, 1]` array cast to `[a, b]` (the kept unit axis dropped) reads, at `(i, j)`, the operand at
    `(i, j, 0)`: both indices have row-major position `i·b + j`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

end Idealize.ShloMosaic.ValueIdx
-- ==== Proof.AttnBody.lean ====
/-
  The attention body at one grid point, read entry by entry on the extended reals.

  The body takes a block of 256 token rows (laid out [1, 256, 1024]), the query weights [1024, 1024], the query bias
  as one row [1, 1024], and the keys and values of the block's batch entry ([1, 2048, 1024] each). A format change is
  the identity on the extended reals and a matrix product into zeros is a plain sum, so:
    query row i, entry f :  Σ_e x[i,e] · w[e,f] + bias[f]
    score of key k       :  Σ_f q[i,f] · K[k,f]
    row maximum          :  the fold of max over the 2048 scores, started from the accumulator's word
    weight of key k      :  exp (score − row maximum)
    total                :  Σ_k weight
    output entry (i, d)  :  (Σ_k weight · V[k,d]) / total.
-/
import proofs.«138019_j57836029608017_2_alg».proof.Proof.Gen.KernelIdeal.Skeleton
import proofs.«138019_j57836029608017_2_alg».proof.Proof.Spec
import proofs.«138019_j57836029608017_2_alg».proof.Proof.LibMatmul
import proofs.«138019_j57836029608017_2_alg».proof.Proof.LibMatmulT
import proofs.«138019_j57836029608017_2_alg».proof.Proof.LibRowMax
import proofs.«138019_j57836029608017_2_alg».proof.Proof.LibRowSum
import proofs.«138019_j57836029608017_2_alg».proof.Proof.LibColumn
import Idealize.ShloMosaic.Lib.ValueLayout
import Idealize.ShloMosaic.Lib.Pipeline.Value
import Idealize.ShloMosaic.PureOps.Ideal.Laws

open scoped BigOperators

noncomputable section

namespace Cert.KernelIdeal.Body

open Cert.KernelIdeal Cert.KernelIdeal.Gen Idealize.ShloMosaic Idealize.ShloMosaic.ValueIdx

/-! ## Which operand entries each of the body's three matrix products pairs -/

section Dims

/-- [256, 1024] × [1024, 1024]: the left column axis against the right row axis. -/
abbrev Dq := dot_S256x1024_S1024x1024_S256x1024_1_0_0_1_n_n
/-- [256, 1024] × [2048, 1024]: the last axis of both. -/
abbrev Ds := dot_S256x1024_S2048x1024_S256x2048_1_1_0_0_n_n
/-- [256, 2048] × [2048, 1024]: the left column axis against the right row axis. -/
abbrev Do := dot_S256x2048_S2048x1024_S256x1024_1_0_0_1_n_n

theorem Dq_l0 (j : S256x1024.Idx) (q : Dq.contr.Idx) : (Dq.lhsIdx j q 0).val = (j 0).val := by
  unfold DotDims.lhsIdx
  rw [dif_neg (show ¬(0 : Fin S256x1024.rank) ∈ Dq.lhsBatch by decide), dif_pos (show (0 : Fin S256x1024.rank) ∈ Dq.lhsNonContracting by decide)]
  rfl
theorem Dq_l1 (j : S256x1024.Idx) (q : Dq.contr.Idx) : (Dq.lhsIdx j q 1).val = (q ⟨0, by decide⟩).val :=
  Dq.lhsIdx_val_of_single rfl j q
theorem Dq_r0 (j : S256x1024.Idx) (q : Dq.contr.Idx) : (Dq.rhsIdx j q 0).val = (q ⟨0, by decide⟩).val :=
  Dq.rhsIdx_val_of_single rfl j q
theorem Dq_r1 (j : S256x1024.Idx) (q : Dq.contr.Idx) : (Dq.rhsIdx j q 1).val = (j 1).val := by
  unfold DotDims.rhsIdx
  rw [dif_neg (show ¬(1 : Fin S1024x1024.rank) ∈ Dq.rhsBatch by decide), dif_pos (show (1 : Fin S1024x1024.rank) ∈ Dq.rhsNonContracting by decide)]
  rfl

theorem Ds_l0 (j : S256x2048.Idx) (q : Ds.contr.Idx) : (Ds.lhsIdx j q 0).val = (j 0).val := by
  unfold DotDims.lhsIdx
  rw [dif_neg (show ¬(0 : Fin S256x1024.rank) ∈ Ds.lhsBatch by decide), dif_pos (show (0 : Fin S256x1024.rank) ∈ Ds.lhsNonContracting by decide)]
  rfl
theorem Ds_l1 (j : S256x2048.Idx) (q : Ds.contr.Idx) : (Ds.lhsIdx j q 1).val = (q ⟨0, by decide⟩).val :=
  Ds.lhsIdx_val_of_single rfl j q
theorem Ds_r0 (j : S256x2048.Idx) (q : Ds.contr.Idx) : (Ds.rhsIdx j q 0).val = (j 1).val := by
  unfold DotDims.rhsIdx
  rw [dif_neg (show ¬(0 : Fin S2048x1024.rank) ∈ Ds.rhsBatch by decide), dif_pos (show (0 : Fin S2048x1024.rank) ∈ Ds.rhsNonContracting by decide)]
  rfl
theorem Ds_r1 (j : S256x2048.Idx) (q : Ds.contr.Idx) : (Ds.rhsIdx j q 1).val = (q ⟨0, by decide⟩).val :=
  Ds.rhsIdx_val_of_single rfl j q

theorem Do_l0 (j : S256x1024.Idx) (q : Do.contr.Idx) : (Do.lhsIdx j q 0).val = (j 0).val := by
  unfold DotDims.lhsIdx
  rw [dif_neg (show ¬(0 : Fin S256x2048.rank) ∈ Do.lhsBatch by decide), dif_pos (show (0 : Fin S256x2048.rank) ∈ Do.lhsNonContracting by decide)]
  rfl
theorem Do_l1 (j : S256x1024.Idx) (q : Do.contr.Idx) : (Do.lhsIdx j q 1).val = (q ⟨0, by decide⟩).val :=
  Do.lhsIdx_val_of_single rfl j q
theorem Do_r0 (j : S256x1024.Idx) (q : Do.contr.Idx) : (Do.rhsIdx j q 0).val = (q ⟨0, by decide⟩).val :=
  Do.rhsIdx_val_of_single rfl j q
theorem Do_r1 (j : S256x1024.Idx) (q : Do.contr.Idx) : (Do.rhsIdx j q 1).val = (j 1).val := by
  unfold DotDims.rhsIdx
  rw [dif_neg (show ¬(1 : Fin S2048x1024.rank) ∈ Do.rhsBatch by decide), dif_pos (show (1 : Fin S2048x1024.rank) ∈ Do.rhsNonContracting by decide)]
  rfl

end Dims

/-! ## The body's intermediate values, named -/

variable (x : FVec Ideal S1x256x1024 .f32) (w : FVec Ideal S1024x1024 .bf16) (bq : FVec Ideal S1x1024 .f32)
  (K V : FVec Ideal S1x2048x1024 .bf16)

/-- The query rows of the block. -/
def queryRows : FVec Ideal S256x1024 .f32 :=
  addf (matmul Dq none (truncf .bf16 (shapeCast S256x1024 x shapeCasts_S1x256x1024_S256x1024) bitsLt_bf16_f32)
      (shapeCast S1024x1024 w shapeCasts_S1024x1024_S1024x1024) (constant S256x1024 .f32 0x00000000#32))
    (broadcastTo S256x1024 (shapeCast S1x1024 bq shapeCasts_S1x1024_S1x1024) broadcasts_S1x1024_S256x1024)

/-- The scores of the block's rows against the 2048 keys. -/
def scores : FVec Ideal S256x2048 .f32 :=
  matmul Ds none (truncf .bf16 (queryRows x w bq) bitsLt_bf16_f32)
    (shapeCast S2048x1024 K shapeCasts_S1x2048x1024_S2048x1024) (constant S256x2048 .f32 0x00000000#32)

/-- Each row's largest score. -/
def rowMax : FVec Ideal S256 .f32 :=
  multiReduction .maximumf [1] S256 (scores x w bq K) 0xFF800000#32 reduces_S256x2048_S256 (.inl rfl) rfl

/-- The weights: exp (score − the row's largest score). -/
def weights : FVec Ideal S256x2048 .f32 :=
  exp (subf (scores x w bq K)
    (broadcastTo S256x2048 (shapeCast S256x1 (rowMax x w bq K) shapeCasts_S256_S256x1) broadcasts_S256x1_S256x2048))

/-- Each row's total weight. -/
def rowTotal : FVec Ideal S256 .f32 :=
  multiReduction .add [1] S256 (weights x w bq K) 0x00000000#32 reduces_S256x2048_S256 (.inl rfl) rfl

/-- The block's output: the weighted sums of the values, each row divided by its total. -/
def output : FVec Ideal S256x1024 .f32 :=
  divf (matmul Do none (truncf .bf16 (weights x w bq K) bitsLt_bf16_f32)
      (shapeCast S2048x1024 V shapeCasts_S1x2048x1024_S2048x1024) (constant S256x1024 .f32 0x00000000#32))
    (broadcastTo S256x1024 (shapeCast S256x1 (rowTotal x w bq K) shapeCasts_S256_S256x1) broadcasts_S256x1_S256x1024)

/-- What the body stores is that output with a leading unit axis added. -/
theorem pay_eq : k1_pay1 (F := Ideal) x w bq K V
    = shapeCast S1x256x1024 (output x w bq K V) shapeCasts_S256x1024_S1x256x1024 := rfl

/-! ## Each value at an entry -/

/-- Query row i, entry f. -/
def qEntry (i : Fin 256) (f : Fin 1024) : EReal :=
  (∑ e : Fin 1024, x (ix3 (0 : Fin 1) i e) * w (ix2 e f)) + bq (ix2 (0 : Fin 1) f)

theorem queryRows_apply (i : Fin 256) (f : Fin 1024) : queryRows x w bq (ix2 i f) = qEntry x w bq i f := by
  unfold queryRows qEntry
  rw [addf_apply]
  refine congrArg₂ (· + ·) ?_ ?_
  · refine (Cert.LibMatmul.matmul_zero_ix2 Dq none rfl rfl Dq_l0 Dq_l1 Dq_r0 Dq_r1 _ _ (ix2 i f)).trans ?_
    refine Finset.sum_congr rfl fun e _ => ?_
    show (truncf .bf16 (shapeCast S256x1024 x shapeCasts_S1x256x1024_S256x1024) bitsLt_bf16_f32) (ix2 i e)
        * (shapeCast S1024x1024 w shapeCasts_S1024x1024_S1024x1024) (ix2 e f) = _
    rw [truncf_apply, shapeCast_1ab_ab_apply, shapeCast_self]
  · refine (broadcastTo_1b_ab_apply _ _ i f).trans ?_
    rw [shapeCast_self]

/-- The score of row i against key k. -/
theorem scores_apply (i : Fin 256) (k : Fin 2048) :
    scores x w bq K (ix2 i k) = Spec.score (qEntry x w bq i) (fun k' f => K (ix3 (0 : Fin 1) k' f)) k := by
  unfold scores Spec.score
  refine (matmulT_zero_apply Ds none rfl rfl Ds_l0 Ds_l1 Ds_r0 Ds_r1 _ _ i k).trans ?_
  refine Finset.sum_congr rfl fun f _ => ?_
  rw [truncf_apply, queryRows_apply, shapeCast_1ab_ab_apply]

/-- Row i's largest score: the fold of max from the accumulator's word. -/
theorem rowMax_apply (i : Fin 256) :
    rowMax x w bq K (ix1 i)
      = Finset.univ.fold max Spec.negInf (Spec.score (qEntry x w bq i) (fun k' f => K (ix3 (0 : Fin 1) k' f))) := by
  unfold rowMax
  refine (Cert.LibRowMax.multiReduction_maximumf_row _ _ reduces_S256x2048_S256 (.inl rfl) rfl i).trans ?_
  exact congrArg (Finset.univ.fold max Spec.negInf) (funext fun k => scores_apply x w bq K i k)

/-- The weight of key k in row i. -/
theorem weights_apply (i : Fin 256) (k : Fin 2048) :
    weights x w bq K (ix2 i k)
      = Ideal.exp (Spec.score (qEntry x w bq i) (fun k' f => K (ix3 (0 : Fin 1) k' f)) k
          - Finset.univ.fold max Spec.negInf (Spec.score (qEntry x w bq i) (fun k' f => K (ix3 (0 : Fin 1) k' f)))) := by
  unfold weights
  show Ideal.exp ((scores x w bq K) (ix2 i k)
      - (broadcastTo S256x2048 (shapeCast S256x1 (rowMax x w bq K) shapeCasts_S256_S256x1) broadcasts_S256x1_S256x2048) (ix2 i k)) = _
  rw [scores_apply, broadcastTo_a1_ab_apply, shapeCast_a_a1_apply, rowMax_apply]

/-- Row i's total weight. -/
theorem rowTotal_apply (i : Fin 256) :
    rowTotal x w bq K (ix1 i) = ∑ k : Fin 2048, weights x w bq K (ix2 i k) := by
  unfold rowTotal
  exact Cert.LibRowSum.multiReduction_add_row _ _ reduces_S256x2048_S256 (.inl rfl) rfl i

/-- Output entry (i, d): the weighted sum of the values, divided once by the row's total. -/
theorem output_apply (i : Fin 256) (d : Fin 1024) :
    output x w bq K V (ix2 i d)
      = Spec.sumThenDivide (Spec.score (qEntry x w bq i) (fun k' f => K (ix3 (0 : Fin 1) k' f)))
          (fun k => V (ix3 (0 : Fin 1) k d)) := by
  unfold output Spec.sumThenDivide
  rw [divf_apply]
  refine congrArg₂ Ideal.div ?_ ?_
  · refine (Cert.LibMatmul.matmul_zero_ix2 Do none rfl rfl Do_l0 Do_l1 Do_r0 Do_r1 _ _ (ix2 i d)).trans ?_
    refine Finset.sum_congr rfl fun k _ => ?_
    show (truncf .bf16 (weights x w bq K) bitsLt_bf16_f32) (ix2 i k)
        * (shapeCast S2048x1024 V shapeCasts_S1x2048x1024_S2048x1024) (ix2 k d) = _
    rw [truncf_apply, weights_apply, shapeCast_1ab_ab_apply]
  · refine (broadcastTo_a1_ab_apply _ _ i d).trans ?_
    rw [shapeCast_a_a1_apply, rowTotal_apply]
    exact Finset.sum_congr rfl fun k _ => weights_apply x w bq K i k

/-- What the body stores, at entry (u, i, d) of the block. -/
theorem pay_apply (u : Fin 1) (i : Fin 256) (d : Fin 1024) :
    k1_pay1 (F := Ideal) x w bq K V (ix3 u i d)
      = Spec.sumThenDivide (Spec.score (qEntry x w bq i) (fun k' f => K (ix3 (0 : Fin 1) k' f)))
          (fun k => V (ix3 (0 : Fin 1) k d)) := by
  rw [pay_eq, shapeCast_ab_1ab_apply, output_apply]

end Cert.KernelIdeal.Body

end
-- ==== Proof.AttnArray.lean ====
/-
  The result array after the second pallas_call.

  The grid is 4 × 8: point (b, s) stages rows 256·s … 256·s + 255 of batch entry b of the token array, the whole
  (scaled) query weights and bias row, and ALL 2048 key rows and value rows of batch entry b; it writes back rows
  256·s … 256·s + 255 of batch entry b of the result. A stored entry (i, d) of the block is one attention output —
  the query row is the projection of the block's row i; the scores are its inner products with the 2048 keys; the
  weighted sum of column d of the values is divided by the weights' total — so every written block is the restriction
  of ONE function of the arrays the call was entered with. The 32 blocks cover the whole array.
-/
import proofs.«138019_j57836029608017_2_alg».proof.Proof.Gen.KernelIdeal.Frame
import proofs.«138019_j57836029608017_2_alg».proof.Proof.AttnBody
import Idealize.ShloMosaic.Lib.Pipeline.Value

set_option maxRecDepth 16384

open scoped BigOperators

noncomputable section

namespace Cert.KernelIdeal.Region1

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

/-- Attention over whole arrays: entry (b, n, d) from token row (b, n), the query weights and bias row, and the key
    and value arrays' batch entry b. -/
def attnRows (X : S4x2048x1024.Idx → EReal) (W : S1024x1024.Idx → EReal) (bias : S1x1024.Idx → EReal)
    (Kk Vv : S4x2048x1024.Idx → EReal) : S4x2048x1024.Idx → EReal :=
  fun i => Spec.sumThenDivide
    (Spec.score (fun f => (∑ e : Fin 1024, X (ix3 (i 0) (i 1) e) * W (ix2 e f)) + bias (ix2 (0 : Fin 1) f))
      (fun k f => Kk (ix3 (i 0) k f)))
    (fun k => Vv (ix3 (i 0) k (i 2)))

theorem attnRows_apply (X : S4x2048x1024.Idx → EReal) (W : S1024x1024.Idx → EReal) (bias : S1x1024.Idx → EReal)
    (Kk Vv : S4x2048x1024.Idx → EReal) (i : S4x2048x1024.Idx) :
    attnRows X W bias Kk Vv i = Spec.sumThenDivide
      (Spec.score (fun f => (∑ e : Fin 1024, X (ix3 (i 0) (i 1) e) * W (ix2 e f)) + bias (ix2 (0 : Fin 1) f))
        (fun k f => Kk (ix3 (i 0) k f)))
      (fun k => Vv (ix3 (i 0) k (i 2))) := rfl

theorem hz2 : (![0, 0] : Fin 2 → Nat) = fun _ => 0 := funext fun a => by fin_cases a <;> rfl
theorem hz3 : (![0, 0, 0] : Fin 3 → Nat) = fun _ => 0 := funext fun a => by fin_cases a <;> rfl

/-- A stored block is the restriction of the whole-array attention: if the staged token block is the token array read
    through an embedding that puts the block at batch entry bb and shifts rows by o, the staged weights and bias are
    the whole arrays, and the staged keys and values are batch entry bb of theirs, then the stored entry j is the
    attention output at the embedded index. -/
theorem block_eq (X : S4x2048x1024.Idx → EReal) (W : S1024x1024.Idx → EReal) (bias : S1x1024.Idx → EReal)
    (Kk Vv : S4x2048x1024.Idx → EReal)
    (x0 : FVec Ideal S1x256x1024 .f32) (x1 : FVec Ideal S1024x1024 .bf16) (x2 : FVec Ideal S1x1024 .f32)
    (x3 x4 : FVec Ideal S1x2048x1024 .bf16)
    (emb : S1x256x1024.Idx → S4x2048x1024.Idx) (bb : Fin 4) (o : Nat)
    (hemb0 : ∀ y, (emb y 0).val = bb.val) (hemb1 : ∀ y, (emb y 1).val = o + (y 1).val) (hemb2 : ∀ y, (emb y 2).val = (y 2).val)
    (h0 : ∀ y, x0 y = X (emb y)) (h1 : ∀ y, x1 y = W y) (h2 : ∀ y, x2 y = bias y)
    (h3 : ∀ (k : Fin 2048) (f : Fin 1024), x3 (ix3 (0 : Fin 1) k f) = Kk (ix3 bb k f))
    (h4 : ∀ (k : Fin 2048) (f : Fin 1024), x4 (ix3 (0 : Fin 1) k f) = Vv (ix3 bb k f)) (j : S1x256x1024.Idx) :
    k1_pay1 (F := Ideal) x0 x1 x2 x3 x4 j = attnRows X W bias Kk Vv (emb j) := by
  obtain ⟨u, i, d, rfl⟩ : ∃ (u : Fin 1) (i : Fin 256) (d : Fin 1024), j = ix3 u i d := ⟨j 0, j 1, j 2, eq_ix3 j⟩
  rw [pay_apply, attnRows_apply]
  have e0 : (emb (ix3 u i d)) 0 = bb := Fin.ext (hemb0 _)
  have e2 : (emb (ix3 u i d)) 2 = d := Fin.ext (hemb2 _)
  rw [e0, e2]
  have hq : qEntry x0 x1 x2 i
      = fun f => (∑ e : Fin 1024, X (ix3 bb ((emb (ix3 u i d)) 1) e) * W (ix2 e f)) + bias (ix2 (0 : Fin 1) f) := by
    funext f
    unfold qEntry
    refine congrArg₂ (· + ·) (Finset.sum_congr rfl fun e _ => ?_) (h2 _)
    rw [h0, h1]
    refine congrArg (fun z => X z * W (ix2 e f)) ?_
    funext a
    apply Fin.ext
    match a with
    | ⟨0, _⟩ => exact hemb0 (ix3 (0 : Fin 1) i e)
    | ⟨1, _⟩ => exact (hemb1 (ix3 (0 : Fin 1) i e)).trans (hemb1 (ix3 u i d)).symm
    | ⟨2, _⟩ => exact hemb2 (ix3 (0 : Fin 1) i e)
  have hK : (fun (k' : Fin 2048) (f : Fin 1024) => x3 (ix3 (0 : Fin 1) k' f)) = fun k' f => Kk (ix3 bb k' f) :=
    funext fun k' => funext fun f => h3 k' f
  have hV : (fun (k : Fin 2048) => x4 (ix3 (0 : Fin 1) k d)) = fun k => Vv (ix3 bb k d) := funext fun k => h4 k d
  rw [hq, hK, hV]

variable (V : (c : Dev nD) → (b : Ref sig .tc) → Buf (Elt Ideal) ((c : Thread nD τ).loc b))

/-- The printed index maps over the grid: the token window moves with the result window; the weights and bias stay
    at block (0, 0); the key and value windows are at the result's batch entry, rows and columns from 0; the result's
    block position stays inside 4 × 8 × 1. -/
theorem idx_facts : ∀ t : Fin cfg1.N,
    win1_0.index t (0 : Fin 3) = win1_5.index t (0 : Fin 3) ∧ win1_0.index t (1 : Fin 3) = win1_5.index t (1 : Fin 3)
    ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = win1_5.index t (0 : Fin 3) ∧ win1_3.index t (1 : Fin 3) = 0 ∧ win1_3.index t (2 : Fin 3) = 0
    ∧ win1_4.index t (0 : Fin 3) = win1_5.index t (0 : Fin 3) ∧ win1_4.index t (1 : Fin 3) = 0 ∧ win1_4.index t (2 : Fin 3) = 0
    ∧ win1_5.index t (2 : Fin 3) = 0 ∧ win1_5.index t (0 : Fin 3) ≤ 3 ∧ win1_5.index t (1 : Fin 3) ≤ 7 :=
  (by decide +kernel : ∀ t : Fin grid1.N, _)

/-- Every block position of the result is some point's. -/
theorem idx_onto : ∀ (q0 : Fin 4) (q1 : Fin 8), ∃ t : Fin cfg1.N, win1_5.index t = ![q0.val, q1.val, 0] :=
  (by decide +kernel : ∀ (q0 : Fin 4) (q1 : Fin 8), ∃ t : Fin grid1.N, win1_5.index t = ![q0.val, q1.val, 0])

/-- What point t writes back is block t of the whole-array attention of the arrays the call was entered with. -/
theorem flushed5_eq (c : Dev nD) (t : Fin cfg1.N) :
    (dat1 V c).flushed 5 t = ((cfg1.win 5).blk t).view.read (Elt Ideal)
      (attnRows (V c main_arg0) (V c main_v3) (V c main_v6) (V c main_v12) (V c main_v13)) := by
  show (cfg1.win 5).cut (grid1.coords t) ((dat1 V c).after 5 t) = _
  rw [after1_5]
  unfold out1_5
  rw [View.canon_unit_zero hz3]
  simp only [View.ld_unit_zero (S := S1x256x1024) hz3, View.ld_unit_zero (S := S1024x1024) hz2,
    View.ld_unit_zero (S := S1x1024) hz2, View.ld_unit_zero (S := S1x2048x1024) hz3]
  obtain ⟨a0, a1, a2, b0, b1, c0, c1, d0, d1, d2, e0, e1, e2, f2, f0, f1⟩ := idx_facts t
  funext j
  show k1_pay1 (iblk1 V c 0 t) (iblk1 V c 1 t) (iblk1 V c 2 t) (iblk1 V c 3 t) (iblk1 V c 4 t) j
      = attnRows (V c main_arg0) (V c main_v3) (V c main_v6) (V c main_v12) (V c main_v13) (((cfg1.win 5).blk t).view.emb j)
  refine block_eq (V c main_arg0) (V c main_v3) (V c main_v6) (V c main_v12) (V c main_v13)
    (iblk1 V c 0 t) (iblk1 V c 1 t) (iblk1 V c 2 t) (iblk1 V c 3 t) (iblk1 V c 4 t) (((cfg1.win 5).blk t).view.emb)
    ⟨win1_5.index t (0 : Fin 3), by omega⟩ (win1_5.index t (1 : Fin 3) * 256) ?_ ?_ ?_ ?_ ?_ ?_ ?_ ?_ j
  · intro y
    have hy : (y 0).val < 1 := (y 0).isLt
    show win1_5.index t (0 : Fin 3) * 1 + 1 * (y 0).val = win1_5.index t (0 : Fin 3)
    omega
  · intro y
    show win1_5.index t (1 : Fin 3) * 256 + 1 * (y 1).val = win1_5.index t (1 : Fin 3) * 256 + (y 1).val
    omega
  · intro y
    show win1_5.index t (2 : Fin 3) * 1024 + 1 * (y 2).val = (y 2).val
    omega
  · intro y
    show V c main_arg0 (((cfg1.win 0).blk t).view.emb y) = V c main_arg0 (((cfg1.win 5).blk t).view.emb y)
    refine congrArg (V c main_arg0) ?_
    funext a
    apply Fin.ext
    match a with
    | ⟨0, _⟩ => show win1_0.index t (0 : Fin 3) * 1 + 1 * (y 0).val = win1_5.index t (0 : Fin 3) * 1 + 1 * (y 0).val; omega
    | ⟨1, _⟩ => show win1_0.index t (1 : Fin 3) * 256 + 1 * (y 1).val = win1_5.index t (1 : Fin 3) * 256 + 1 * (y 1).val; omega
    | ⟨2, _⟩ => show win1_0.index t (2 : Fin 3) * 1024 + 1 * (y 2).val = win1_5.index t (2 : Fin 3) * 1024 + 1 * (y 2).val; omega
  · intro y
    show V c main_v3 (((cfg1.win 1).blk t).view.emb y) = V c main_v3 y
    refine congrArg (V c main_v3) ?_
    funext a
    apply Fin.ext
    match a with
    | ⟨0, _⟩ => show win1_1.index t (0 : Fin 2) * 1024 + 1 * (y 0).val = (y 0).val; omega
    | ⟨1, _⟩ => show win1_1.index t (1 : Fin 2) * 1024 + 1 * (y 1).val = (y 1).val; omega
  · intro y
    show V c main_v6 (((cfg1.win 2).blk t).view.emb y) = V c main_v6 y
    refine congrArg (V c main_v6) ?_
    funext a
    apply Fin.ext
    match a with
    | ⟨0, _⟩ => show win1_2.index t (0 : Fin 2) * 1 + 1 * (y 0).val = (y 0).val; omega
    | ⟨1, _⟩ => show win1_2.index t (1 : Fin 2) * 1024 + 1 * (y 1).val = (y 1).val; omega
  · intro k f
    show V c main_v12 (((cfg1.win 3).blk t).view.emb (ix3 (0 : Fin 1) k f)) = V c main_v12 (ix3 ⟨win1_5.index t (0 : Fin 3), by omega⟩ k f)
    refine congrArg (V c main_v12) ?_
    funext a
    apply Fin.ext
    match a with
    | ⟨0, _⟩ => show win1_3.index t (0 : Fin 3) * 1 + 1 * 0 = win1_5.index t (0 : Fin 3); omega
    | ⟨1, _⟩ => show win1_3.index t (1 : Fin 3) * 2048 + 1 * k.val = k.val; omega
    | ⟨2, _⟩ => show win1_3.index t (2 : Fin 3) * 1024 + 1 * f.val = f.val; omega
  · intro k f
    show V c main_v13 (((cfg1.win 4).blk t).view.emb (ix3 (0 : Fin 1) k f)) = V c main_v13 (ix3 ⟨win1_5.index t (0 : Fin 3), by omega⟩ k f)
    refine congrArg (V c main_v13) ?_
    funext a
    apply Fin.ext
    match a with
    | ⟨0, _⟩ => show win1_4.index t (0 : Fin 3) * 1 + 1 * 0 = win1_5.index t (0 : Fin 3); omega
    | ⟨1, _⟩ => show win1_4.index t (1 : Fin 3) * 2048 + 1 * k.val = k.val; omega
    | ⟨2, _⟩ => show win1_4.index t (2 : Fin 3) * 1024 + 1 * f.val = f.val; omega

/-- An index of the result array is in point t's block iff each coordinate is in the block's range on its axis. -/
theorem mem_blk5 (t : Fin cfg1.N) (i : S4x2048x1024.Idx) :
    i ∈ ((cfg1.win 5).blk t).view.set ↔ ∀ a : Fin 3, win1_5.index t a * S1x256x1024.size a ≤ (i a).val
      ∧ (i a).val < win1_5.index t a * S1x256x1024.size a + S1x256x1024.size a := by
  show i ∈ ((View.whole main_v14).slice (win1_5.rect t)).set ↔ _
  rw [View.set_slice_whole, Rect.mem_set_unit]
  exact Iff.rfl

/-- Every index (b, n, d) lies in the block of the point at position (b, n / 256). -/
theorem cover5 (i : S4x2048x1024.Idx) :
    ∃ t : Fin cfg1.N, (cfg1.win 5).flush t = true ∧ i ∈ ((cfg1.win 5).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win1_5.index t (0 : Fin 3) = (i 0).val := congrFun ht 0
  have q1 : win1_5.index t (1 : Fin 3) = (i 1).val / 256 := congrFun ht 1
  have q2 : win1_5.index t (2 : Fin 3) = 0 := congrFun ht 2
  refine ⟨t, flush1_5 t, ?_⟩
  rw [mem_blk5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 256 ≤ (i 1).val ∧ (i 1).val < win1_5.index t (1 : Fin 3) * 256 + 256; omega
  | ⟨2, _⟩ => show win1_5.index t (2 : Fin 3) * 1024 ≤ (i 2).val ∧ (i 2).val < win1_5.index t (2 : Fin 3) * 1024 + 1024; omega

/-- The result array after the call: the whole-array attention of the arrays the call was entered with. -/
theorem final5 (c : Dev nD) :
    (dat1 V c).arrAt 5 cfg1.N = attnRows (V c main_arg0) (V c main_v3) (V c main_v6) (V c main_v12) (V c main_v13) :=
  (dat1 V c).arrAt_eq_of_cover 5 (attnRows (V c main_arg0) (V c main_v3) (V c main_v6) (V c main_v12) (V c main_v13))
    (fun t _ => flushed5_eq V c t) cover5

end Cert.KernelIdeal.Region1

end
-- ==== Proof.LibTile.lean ====
/-
  Layout steps of a kernel that works on a tile of rows, read at an index written by coordinates.

  A tile [a, b, c] (a batch rows, b time steps, c lanes) is flattened to [a*b, c] for a matrix product and
  the product is unflattened again; one time step is cut out of the tile and its unit axis dropped; a run of
  lanes is cut out; a lane vector [c] is laid out as [1, 1, c] and repeated over every row and time step.
  Each lemma says which single entry of the operand the result holds at (r, s, k).
-/
import Idealize.ShloMosaic.Lib.Pipeline.Value
import Idealize.ShloMosaic.Lib.ValueIdx
import Idealize.ShloMosaic.Lib.ValueLayout

noncomputable section

namespace Cert.LibTile

open Idealize.ShloMosaic Idealize.ShloMosaic.ValueIdx

variable {α : Type}

/-- A tile [a, b, c] flattened to [n, c] holds, in row `r * b + s`, the tile's row (r, s). -/
theorem flatten_apply {a b c n : ℕ} (x : (⟨3, ![a, b, c]⟩ : Shape).Idx → α)
    (h : (⟨3, ![a, b, c]⟩ : Shape).ShapeCasts ⟨2, ![n, c]⟩) (r : Fin a) (s : Fin b) (k : Fin c) (p : Fin n)
    (hp : p.val = r.val * b + s.val) :
    shapeCast ⟨2, ![n, c]⟩ x h (ix2 p k) = x (ix3 r s k) :=
  shapeCast_apply x h _ _ (by
    rw [Shape.rowMajor_val_three, Shape.rowMajor_val_two]
    show (r.val * b + s.val) * c + k.val = p.val * c + k.val
    rw [hp])

/-- An [n, c] array unflattened to a tile [a, b, c] holds, at (r, s), the array's row `r * b + s`. -/
theorem unflatten_apply {a b c n : ℕ} (y : (⟨2, ![n, c]⟩ : Shape).Idx → α)
    (h : (⟨2, ![n, c]⟩ : Shape).ShapeCasts ⟨3, ![a, b, c]⟩) (r : Fin a) (s : Fin b) (k : Fin c) (p : Fin n)
    (hp : p.val = r.val * b + s.val) :
    shapeCast ⟨3, ![a, b, c]⟩ y h (ix3 r s k) = y (ix2 p k) :=
  shapeCast_apply y h _ _ (by
    rw [Shape.rowMajor_val_three, Shape.rowMajor_val_two]
    show p.val * c + k.val = (r.val * b + s.val) * c + k.val
    rw [hp])

/-- Time step `s` cut out of a tile ([a, 1, c] at offset (0, s, 0)) with its unit axis dropped holds, at
    (r, k), the tile's entry (r, s, k). -/
theorem step_apply {a b c : ℕ} (x : (⟨3, ![a, b, c]⟩ : Shape).Idx → α) (s : ℕ)
    (hs : (⟨3, ![a, b, c]⟩ : Shape).Slices ![0, s, 0] ⟨3, ![a, 1, c]⟩)
    (hc : (⟨3, ![a, 1, c]⟩ : Shape).ShapeCasts ⟨2, ![a, c]⟩) (r : Fin a) (k : Fin c) (s' : Fin b) (hs' : s'.val = s) :
    shapeCast ⟨2, ![a, c]⟩ (extractStridedSlice ⟨3, ![a, 1, c]⟩ ![0, s, 0] x hs) hc (ix2 r k) = x (ix3 r s' k) := by
  refine (shapeCast_apply _ hc (ix2 r k) (ix3 r (⟨0, Nat.one_pos⟩ : Fin 1) k) ?_).trans ?_
  · rw [Shape.rowMajor_val_three, Shape.rowMajor_val_two]
    show (r.val * 1 + 0) * c + k.val = r.val * c + k.val
    rw [Nat.mul_one, Nat.add_zero]
  · exact extractStridedSlice_apply _ x hs _ _ (fun ax => match ax with
      | ⟨0, _⟩ => by show r.val = 0 + r.val; omega
      | ⟨1, _⟩ => by show s'.val = s + 0; omega
      | ⟨2, _⟩ => by show k.val = 0 + k.val; omega)

/-- A run of lanes starting at `off` cut out of a tile holds, at (r, s, k), the tile's entry (r, s, off + k). -/
theorem lanes_apply {a b c c' : ℕ} (x : (⟨3, ![a, b, c]⟩ : Shape).Idx → α) (off : ℕ)
    (h : (⟨3, ![a, b, c]⟩ : Shape).Slices ![0, 0, off] ⟨3, ![a, b, c']⟩) (r : Fin a) (s : Fin b) (k : Fin c')
    (k' : Fin c) (hk : k'.val = off + k.val) :
    extractStridedSlice ⟨3, ![a, b, c']⟩ ![0, 0, off] x h (ix3 r s k) = x (ix3 r s k') :=
  extractStridedSlice_apply _ x h _ _ (fun ax => match ax with
    | ⟨0, _⟩ => by show r.val = 0 + r.val; omega
    | ⟨1, _⟩ => by show s.val = 0 + s.val; omega
    | ⟨2, _⟩ => by show k'.val = off + k.val; exact hk)

/-- A lane vector [c] laid out as [1, 1, c] and repeated over a tile [a, b, c] holds, at (r, s, k), the
    vector's entry k. -/
theorem lanevec_apply {a b c : ℕ} (v : (⟨1, ![c]⟩ : Shape).Idx → α)
    (h1 : (⟨1, ![c]⟩ : Shape).ShapeCasts ⟨3, ![1, 1, c]⟩) (h2 : (⟨3, ![1, 1, c]⟩ : Shape).Broadcasts ⟨3, ![a, b, c]⟩)
    (r : Fin a) (s : Fin b) (k : Fin c) :
    broadcastTo ⟨3, ![a, b, c]⟩ (shapeCast ⟨3, ![1, 1, c]⟩ v h1) h2 (ix3 r s k) = v (ix1 k) := by
  refine (broadcastTo_apply _ h2 (ix3 r s k) (ix3 (⟨0, Nat.one_pos⟩ : Fin 1) (⟨0, Nat.one_pos⟩ : Fin 1) k) fun ax => ?_).trans ?_
  · match ax with
    | ⟨0, _⟩ => rfl
    | ⟨1, _⟩ => rfl
    | ⟨2, _⟩ =>
      show k.val = if c = 1 then 0 else k.val
      split
      · have := k.isLt; omega
      · rfl
  · exact shapeCast_apply v h1 _ _ (by
      rw [Shape.rowMajor_val_three, Shape.rowMajor_val_one]
      show k.val = (0 * 1 + 0) * c + k.val
      rw [Nat.zero_mul, Nat.zero_add])

/-- A vector [c] laid out as one row [1, c] and repeated over [a, c] holds, at (r, k), the vector's entry k. -/
theorem rowvec_apply {a c : ℕ} (v : (⟨1, ![c]⟩ : Shape).Idx → α)
    (h1 : (⟨1, ![c]⟩ : Shape).ShapeCasts ⟨2, ![1, c]⟩) (h2 : (⟨2, ![1, c]⟩ : Shape).Broadcasts ⟨2, ![a, c]⟩)
    (r : Fin a) (k : Fin c) :
    broadcastTo ⟨2, ![a, c]⟩ (shapeCast ⟨2, ![1, c]⟩ v h1) h2 (ix2 r k) = v (ix1 k) :=
  (broadcastTo_1b_ab_apply _ h2 r k).trans (shapeCast_a_1a_apply v h1 _ k)

end Cert.LibTile

end
-- ==== Proof.KernelValue.lean ====
/-
  The idealized kernel's result as ONE function of its seven argument arrays.

  Before the first pallas_call the host re-lays the tokens [4, 2048, 1024] as a matrix [8192, 1024] (row 2048·b + r
  is token (b, r)), multiplies the query weights and bias by the scale, lays each bias out as one row, and changes
  formats (the identity on the extended reals). The first call leaves the key and value matrices: row n, entry f is
  Σ_e X[n,e] · W[e,f] + bias[f]. Two reshapes lay them out [4, 2048, 1024] again, so entry (b, k, f) of the keys is the
  key projection of token (b, k), and likewise the values. The second call leaves, at (b, n, d), the attention output
  of token (b, n) against batch entry b's keys and values, its query row projected with the scaled weights and bias.
  Nothing writes an argument array, so each is what was launched.
-/
import proofs.«138019_j57836029608017_2_alg».proof.Proof.Gen.KernelIdeal.Frame
import proofs.«138019_j57836029608017_2_alg».proof.Proof.KernelRun
import proofs.«138019_j57836029608017_2_alg».proof.Proof.KvArray
import proofs.«138019_j57836029608017_2_alg».proof.Proof.AttnArray
import proofs.«138019_j57836029608017_2_alg».proof.Proof.LibTile
import proofs.«138019_j57836029608017_2_alg».proof.Proof.Spec
import Idealize.ShloMosaic.Lib.StableHlo.Run
import Idealize.ShloMosaic.Lib.ValueLayout
import Idealize.ShloMosaic.Lib.Pipeline.Value

set_option maxRecDepth 16384

open scoped BigOperators

noncomputable section

namespace Cert.KernelIdeal.Value

open Cert.KernelIdeal Cert.KernelIdeal.Gen
open Idealize.ShloMosaic Idealize.ShloMosaic.TcCoe Idealize.ShloMosaic.ValueIdx Idealize.SL.Sem Idealize.ShloMosaic.StableHlo

/-- The product of two extended reals. -/
abbrev mulE (a b : EReal) : EReal := a * b

/-- The whole-array functions of the two calls and the specification, read at an index written by coordinates. -/
theorem projRows_ix2 (X : S8192x1024.Idx → EReal) (W : S1024x1024.Idx → EReal) (bias : S1x1024.Idx → EReal)
    (n : Fin 8192) (f : Fin 1024) :
    Region0.projRows X W bias (ix2 n f) = (∑ e : Fin 1024, X (ix2 n e) * W (ix2 e f)) + bias (ix2 (0 : Fin 1) f) := rfl

theorem attnRows_ix3 (X : S4x2048x1024.Idx → EReal) (W : S1024x1024.Idx → EReal) (bias : S1x1024.Idx → EReal)
    (Kk Vv : S4x2048x1024.Idx → EReal) (b : Fin 4) (n : Fin 2048) (d : Fin 1024) :
    Region1.attnRows X W bias Kk Vv (ix3 b n d) = Spec.sumThenDivide
      (Spec.score (fun f => (∑ e : Fin 1024, X (ix3 b n e) * W (ix2 e f)) + bias (ix2 (0 : Fin 1) f)) (fun k f => Kk (ix3 b k f)))
      (fun k => Vv (ix3 b k d)) := rfl

theorem scaledFirst_ix3 (x : Spec.Arr3) (Wq : Spec.Mat) (bq : Spec.Vec1) (Wk : Spec.Mat) (bk : Spec.Vec1) (Wv : Spec.Mat)
    (bv : Spec.Vec1) (b : Fin 4) (n : Fin 2048) (d : Fin 1024) :
    Spec.scaledFirst x Wq bq Wk bk Wv bv (ix3 b n d) = Spec.sumThenDivide
      (Spec.score (Spec.projScaled Spec.scale x Wq bq b n) (fun k => Spec.proj x Wk bk b k))
      (fun k => Spec.proj x Wv bv b k d) := rfl

theorem proj_eq (x : Spec.Arr3) (W : Spec.Mat) (bias : Spec.Vec1) (b : Fin 4) (r : Fin 2048) (f : Fin 1024) :
    Spec.proj x W bias b r f = (∑ e : Fin 1024, x (ix3 b r e) * W (ix2 e f)) + bias (ix1 f) := rfl

theorem projScaled_eq (s : EReal) (x : Spec.Arr3) (W : Spec.Mat) (bias : Spec.Vec1) (b : Fin 4) (r : Fin 2048) (f : Fin 1024) :
    Spec.projScaled s x W bias b r f = (∑ e : Fin 1024, x (ix3 b r e) * mulE (W (ix2 e f)) s) + mulE (bias (ix1 f)) s := rfl

variable (m : (ℓ : Loc nD τ sig) → Buf (Elt Ideal) ℓ) (ρ : Dev nD → PrngReg) (c : Dev nD)

/-! ## What the first call is entered with -/

/-- The token matrix is the token array re-laid. -/
theorem V1_tokens : V1 m ρ c main_v0 = shapeCast S8192x1024 (m ((c : Thread nD τ).loc main_arg0)) shapeCasts_S4x2048x1024_S8192x1024 := by
  show StableHlo.after hostOps0 (W0 m ρ c) (Proc.devRef .tc main_v0) = _
  after_results
  try rfl

theorem V1_tokens_apply (b : Fin 4) (r : Fin 2048) (e : Fin 1024) (n : Fin 8192) (hn : n.val = b.val * 2048 + r.val) :
    V1 m ρ c main_v0 (ix2 n e) = (m ((c : Thread nD τ).loc main_arg0)) (ix3 b r e) := by
  rw [V1_tokens]
  exact Cert.LibTile.flatten_apply _ _ b r e n hn

/-- The key weights, format changed. -/
theorem V1_keyW (j : S1024x1024.Idx) : V1 m ρ c main_v7 j = (m ((c : Thread nD τ).loc main_arg3)) j := by
  have e : V1 m ρ c main_v7 = fun j => (m ((c : Thread nD τ).loc main_arg3)) j := by
    show StableHlo.after hostOps0 (W0 m ρ c) (Proc.devRef .tc main_v7) = _
    after_results
    try rfl
  rw [e]

/-- The value weights, format changed. -/
theorem V1_valW (j : S1024x1024.Idx) : V1 m ρ c main_v8 j = (m ((c : Thread nD τ).loc main_arg5)) j := by
  have e : V1 m ρ c main_v8 = fun j => (m ((c : Thread nD τ).loc main_arg5)) j := by
    show StableHlo.after hostOps0 (W0 m ρ c) (Proc.devRef .tc main_v8) = _
    after_results
    try rfl
  rw [e]

/-- The key bias laid out as one row. -/
theorem V1_keyB (f : Fin 1024) : V1 m ρ c main_v9 (ix2 (0 : Fin 1) f) = (m ((c : Thread nD τ).loc main_arg4)) (ix1 f) := by
  have e : V1 m ρ c main_v9 = shapeCast S1x1024 (m ((c : Thread nD τ).loc main_arg4)) shapeCasts_S1024_S1x1024 := by
    show StableHlo.after hostOps0 (W0 m ρ c) (Proc.devRef .tc main_v9) = _
    after_results
    try rfl
  rw [e]
  exact shapeCast_a_1a_apply _ _ _ f

/-- The value bias laid out as one row. -/
theorem V1_valB (f : Fin 1024) : V1 m ρ c main_v10 (ix2 (0 : Fin 1) f) = (m ((c : Thread nD τ).loc main_arg6)) (ix1 f) := by
  have e : V1 m ρ c main_v10 = shapeCast S1x1024 (m ((c : Thread nD τ).loc main_arg6)) shapeCasts_S1024_S1x1024 := by
    show StableHlo.after hostOps0 (W0 m ρ c) (Proc.devRef .tc main_v10) = _
    after_results
    try rfl
  rw [e]
  exact shapeCast_a_1a_apply _ _ _ f

/-! ## What the second call is entered with -/

/-- The tokens: untouched by everything before. -/
theorem V3_tokens : V3 m ρ c main_arg0 = (m ((c : Thread nD τ).loc main_arg0)) := by
  have e1 : V3 m ρ c main_arg0 = W2 m ρ c (Proc.devRef .tc main_arg0) := by
    show StableHlo.after hostOps1 (W2 m ρ c) (Proc.devRef .tc main_arg0) = _
    after_results
    try rfl
  have e2 : W1 m ρ c (Proc.devRef .tc main_arg0) = (m ((c : Thread nD τ).loc main_arg0)) := by
    show StableHlo.after hostOps0 (W0 m ρ c) (Proc.devRef .tc main_arg0) = _
    after_results
    try rfl
  exact e1.trans ((W2_of_ne m ρ c main_arg0 (by decide)).trans e2)

/-- The query weights, each multiplied by the scale. -/
theorem V3_queryW (j : S1024x1024.Idx) : V3 m ρ c main_v3 j = mulE ((m ((c : Thread nD τ).loc main_arg1)) j) Spec.scale := by
  have e1 : V3 m ρ c main_v3 = W2 m ρ c (Proc.devRef .tc main_v3) := by
    show StableHlo.after hostOps1 (W2 m ρ c) (Proc.devRef .tc main_v3) = _
    after_results
    try rfl
  have e2 : W1 m ρ c (Proc.devRef .tc main_v3)
      = fun j => mulE ((m ((c : Thread nD τ).loc main_arg1)) j) ((broadcastInDim S1024x1024 ![] bcast_S_S1024x1024 (constant (F := Ideal) S_ .f32 0x3D000000#32)) j) := by
    show StableHlo.after hostOps0 (W0 m ρ c) (Proc.devRef .tc main_v3) = _
    after_results
    try rfl
  rw [e1, W2_of_ne m ρ c main_v3 (by decide), e2]
  refine congrArg (mulE ((m ((c : Thread nD τ).loc main_arg1)) j)) ?_
  exact broadcastInDim_apply _ bcast_S_S1024x1024 _ j ix0 (fun a => a.elim0)

/-- The query bias, each entry multiplied by the scale, laid out as one row. -/
theorem V3_queryB (f : Fin 1024) : V3 m ρ c main_v6 (ix2 (0 : Fin 1) f) = mulE ((m ((c : Thread nD τ).loc main_arg2)) (ix1 f)) Spec.scale := by
  have e1 : V3 m ρ c main_v6 = W2 m ρ c (Proc.devRef .tc main_v6) := by
    show StableHlo.after hostOps1 (W2 m ρ c) (Proc.devRef .tc main_v6) = _
    after_results
    try rfl
  have e2 : W1 m ρ c (Proc.devRef .tc main_v6)
      = shapeCast S1x1024 (fun j => mulE ((m ((c : Thread nD τ).loc main_arg2)) j) ((broadcastInDim S1024 ![] bcast_S_S1024 (constant (F := Ideal) S_ .f32 0x3D000000#32)) j)) shapeCasts_S1024_S1x1024 := by
    show StableHlo.after hostOps0 (W0 m ρ c) (Proc.devRef .tc main_v6) = _
    after_results
    try rfl
  rw [e1, W2_of_ne m ρ c main_v6 (by decide), e2]
  refine (shapeCast_a_1a_apply _ _ _ f).trans ?_
  refine congrArg (mulE ((m ((c : Thread nD τ).loc main_arg2)) (ix1 f))) ?_
  exact broadcastInDim_apply _ bcast_S_S1024 _ (ix1 f) ix0 (fun a => a.elim0)

/-- Entry (b, k, f) of the keys: the key projection of token (b, k). -/
theorem V3_keys (b : Fin 4) (k : Fin 2048) (f : Fin 1024) :
    V3 m ρ c main_v12 (ix3 b k f) = Spec.proj (m ((c : Thread nD τ).loc main_arg0)) (m ((c : Thread nD τ).loc main_arg3)) (m ((c : Thread nD τ).loc main_arg4)) b k f := by
  have e1 : V3 m ρ c main_v12 = shapeCast S4x2048x1024 (W2 m ρ c (Proc.devRef .tc main_v11_0)) shapeCasts_S8192x1024_S4x2048x1024 := by
    show StableHlo.after hostOps1 (W2 m ρ c) (Proc.devRef .tc main_v12) = _
    after_results
    try rfl
  have hk : k.val < 2048 := k.isLt
  have hb : b.val < 4 := b.isLt
  rw [e1, Cert.LibTile.unflatten_apply _ _ b k f (⟨b.val * 2048 + k.val, by omega⟩ : Fin 8192) rfl,
    (W2_arr m ρ c 5 : W2 m ρ c (Proc.devRef .tc main_v11_0) = _), Region0.final5 (V1 m ρ) c, projRows_ix2, proj_eq]
  refine congrArg₂ (· + ·) (Finset.sum_congr rfl fun e _ => ?_) (V1_keyB m ρ c f)
  rw [V1_tokens_apply m ρ c b k e _ rfl, V1_keyW]

/-- Entry (b, k, f) of the values: the value projection of token (b, k). -/
theorem V3_values (b : Fin 4) (k : Fin 2048) (f : Fin 1024) :
    V3 m ρ c main_v13 (ix3 b k f) = Spec.proj (m ((c : Thread nD τ).loc main_arg0)) (m ((c : Thread nD τ).loc main_arg5)) (m ((c : Thread nD τ).loc main_arg6)) b k f := by
  have e1 : V3 m ρ c main_v13 = shapeCast S4x2048x1024 (W2 m ρ c (Proc.devRef .tc main_v11_1)) shapeCasts_S8192x1024_S4x2048x1024 := by
    show StableHlo.after hostOps1 (W2 m ρ c) (Proc.devRef .tc main_v13) = _
    after_results
    try rfl
  have hk : k.val < 2048 := k.isLt
  have hb : b.val < 4 := b.isLt
  rw [e1, Cert.LibTile.unflatten_apply _ _ b k f (⟨b.val * 2048 + k.val, by omega⟩ : Fin 8192) rfl,
    (W2_arr m ρ c 6 : W2 m ρ c (Proc.devRef .tc main_v11_1) = _), Region0.final6 (V1 m ρ) c, projRows_ix2, proj_eq]
  refine congrArg₂ (· + ·) (Finset.sum_congr rfl fun e _ => ?_) (V1_valB m ρ c f)
  rw [V1_tokens_apply m ρ c b k e _ rfl, V1_valW]

/-! ## The result -/

/-- What the last segment leaves in the result array: attention with the scale folded into the query projection. -/
theorem result_eq : W4 m ρ c (Proc.devRef .tc main_v14)
    = Spec.scaledFirst (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 5 : W4 m ρ c (Proc.devRef .tc main_v14) = _).trans ((Region1.final5 (V3 m ρ) c).trans ?_)
  funext i
  obtain ⟨b, n, d, rfl⟩ : ∃ (b : Fin 4) (n : Fin 2048) (d : Fin 1024), i = ix3 b n d := ⟨i 0, i 1, i 2, eq_ix3 i⟩
  rw [attnRows_ix3, scaledFirst_ix3]
  refine congrArg₂ Spec.sumThenDivide (congrArg₂ Spec.score (funext fun f => ?_) (funext fun k => funext fun f => V3_keys m ρ c b k f))
    (funext fun k => V3_values m ρ c b k d)
  rw [projScaled_eq]
  refine congrArg₂ (· + ·) (Finset.sum_congr rfl fun e _ => ?_) (V3_queryB m ρ c f)
  rw [V3_tokens, V3_queryW]

/-- The idealized kernel's run: every weakly fair execution terminates without a fault, the result array holds
    attention with the scale folded into the query projection, and the argument arrays are unchanged. -/
theorem run : θ_run (defs (F := Ideal)) (onTc (τ := τ) (main (F := Ideal))) ⟨m, fun _ => 0, ρ⟩ (fun r => ∀ c : Dev nD,
      r.2.mem ((c.tc : Thread nD τ).loc main_v14)
        = Spec.scaledFirst (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (Cert.KernelIdeal.Result.run_result m ρ)

end Cert.KernelIdeal.Value

end
-- ==== Proof.lean ====
/-
  The certificate of single-head softmax attention, x : [4, 2048, 1024] with three projections of width 1024.

  Both programs run and leave their arguments unchanged (the generated frame certificates; the reference's run read
  back operation by operation).  At the ideal values the kernel ends with the attention array in the arrangement
  "scale folded into the query projection; sum the weighted values, then divide once by the weights' total", and the
  reference with the arrangement "divide every score by √1024; divide every weight by the total, then sum".  The
  precondition makes every entry of the seven argument arrays a real number, and for real entries the two arrangements
  are the same real array: the scale 1/32 moves across the inner products by distributivity, both rows of scores have
  the same finite maximum, every weight is a positive real, so the total is a nonzero real and dividing by it
  distributes over the sum of the weighted values.
-/
import proofs.«138019_j57836029608017_2_alg».proof.Defs
import proofs.«138019_j57836029608017_2_alg».proof.Proof.Gen.Kernel
import proofs.«138019_j57836029608017_2_alg».proof.Proof.Gen.Kernel.Skeleton
import proofs.«138019_j57836029608017_2_alg».proof.Proof.Gen.Kernel.Launch
import proofs.«138019_j57836029608017_2_alg».proof.Proof.Gen.Kernel.Points
import proofs.«138019_j57836029608017_2_alg».proof.Proof.Gen.Kernel.Frame
import proofs.«138019_j57836029608017_2_alg».proof.Proof.Gen.KernelIdeal
import proofs.«138019_j57836029608017_2_alg».proof.Proof.Gen.KernelIdeal.Skeleton
import proofs.«138019_j57836029608017_2_alg».proof.Proof.Gen.KernelIdeal.Launch
import proofs.«138019_j57836029608017_2_alg».proof.Proof.Gen.KernelIdeal.Points
import proofs.«138019_j57836029608017_2_alg».proof.Proof.Gen.KernelIdeal.Frame
import proofs.«138019_j57836029608017_2_alg».proof.Proof.Gen.ReferenceIdeal
import proofs.«138019_j57836029608017_2_alg».proof.Proof.Gen.Pre_finite_inputs
import proofs.«138019_j57836029608017_2_alg».proof.Proof.Gen.ReferenceIdeal.Run
import proofs.«138019_j57836029608017_2_alg».proof.Proof.Gen.ReferenceIdeal.Read
import proofs.«138019_j57836029608017_2_alg».proof.Proof.Spec
import proofs.«138019_j57836029608017_2_alg».proof.Proof.RefValue
import proofs.«138019_j57836029608017_2_alg».proof.Proof.Law
import proofs.«138019_j57836029608017_2_alg».proof.Proof.Finite
import proofs.«138019_j57836029608017_2_alg».proof.Proof.KernelValue
import Idealize.ShloMosaic.Adequacy
import Idealize.ShloMosaic.Init

noncomputable section

namespace Cert.Proof

open Idealize.ShloMosaic Idealize.SL.Sem Cert.Kernel

/-- The kernel runs and leaves its arguments unchanged. -/
theorem frame_kernel : Cert.frame_Kernel := fun m ρ _ => Cert.Kernel.Gen.frame m ρ

/-- The kernel read at the ideal values runs and leaves its arguments unchanged. -/
theorem frame_kernelIdeal : Cert.frame_KernelIdeal := fun m ρ _ => Cert.KernelIdeal.Gen.frame m ρ

/-- The reference runs and leaves its arguments unchanged. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments, all of them finite, both programs end with the same attention array:
    the kernel's arrangement of it, which the reference's arrangement equals for real entries. -/
theorem algebraic : Cert.algebraic_KernelIdeal_ReferenceIdeal := by
  intro m ρ m' ρ' hpre hagree
  refine ⟨fun c => Cert.Spec.scaledFirst
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := Cert.Finite.reals_of_pre _ _ _ _ _ _ _ (hpre c)
  rw [Cert.ReferenceIdeal.Read.val_main_v27_eq, (hagree c).1, (hagree c).2.1, (hagree c).2.2.1, (hagree c).2.2.2.1,
    (hagree c).2.2.2.2.1, (hagree c).2.2.2.2.2.1, (hagree c).2.2.2.2.2.2]
  exact (Cert.RefValue.ref_value _ _ _ _ _ _ _).trans
    (Cert.Law.scaledFirst_eq_scaledLast _ _ _ _ _ _ _ h0 h1 h2 h3 h4 h5 h6).symm

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
